-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x64x1024 : Shape := ⟨3, ![1, 64, 1024]⟩
abbrev S1x2048x1024 : Shape := ⟨3, ![1, 2048, 1024]⟩
abbrev S64x1024 : Shape := ⟨2, ![64, 1024]⟩
abbrev S2048x1024 : Shape := ⟨2, ![2048, 1024]⟩
abbrev S64x16x64 : Shape := ⟨3, ![64, 16, 64]⟩
abbrev S16x64x64 : Shape := ⟨3, ![16, 64, 64]⟩
abbrev S2048x16x64 : Shape := ⟨3, ![2048, 16, 64]⟩
abbrev S16x2048x64 : Shape := ⟨3, ![16, 2048, 64]⟩
abbrev S16x64x2048 : Shape := ⟨3, ![16, 64, 2048]⟩
abbrev S16x64 : Shape := ⟨2, ![16, 64]⟩
abbrev S16x64x1 : Shape := ⟨3, ![16, 64, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S4096x3072, .bf16⟩
  | .hbm, ⟨5, _⟩ => ⟨S2x2048x3072, .bf16⟩
  | .hbm, ⟨6, _⟩ => ⟨S2x2048x1024, .f32⟩
  | .hbm, ⟨7, _⟩ => ⟨S4096x1024, .f32⟩
  | .hbm, ⟨8, _⟩ => ⟨S4096x1024, .f32⟩
  | .hbm, ⟨9, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .f32⟩
  | .local _ .vmem, ⟨3, _⟩ => ⟨S512x3072, .bf16⟩
  | .local _ .vmem, ⟨4, _⟩ => ⟨S512x3072, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x64x1024, .f32⟩
  | .local _ .vmem, ⟨10, _⟩ => ⟨S1x64x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S512x1024, .f32⟩
  | .local _ .vmem, ⟨15, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S64x1024_S64x16x64 : S64x1024.ShapeCasts S64x16x64
  transposes_S64x16x64_p1_0_2_S16x64x64 : S64x16x64.Transposes [1, 0, 2] S16x64x64
  shapeCasts_S2048x1024_S2048x16x64 : S2048x1024.ShapeCasts S2048x16x64
  transposes_S2048x16x64_p1_0_2_S16x2048x64 : S2048x16x64.Transposes [1, 0, 2] S16x2048x64
  reduces_S16x64x2048_S16x64 : S16x64x2048.Reduces [2] S16x64
  shapeCasts_S16x64_S16x64x1 : S16x64.ShapeCasts S16x64x1
  broadcasts_S16x64x1_S16x64x2048 : S16x64x1.Broadcasts S16x64x2048
  transposes_S16x64x64_p1_0_2_S64x16x64 : S16x64x64.Transposes [1, 0, 2] S64x16x64
  shapeCasts_S64x16x64_S64x1024 : S64x16x64.ShapeCasts S64x1024
  shapeCasts_S64x1024_S1x64x1024 : S64x1024.ShapeCasts S1x64x1024
  inb_S1024x1024_S1024x1024_0_0 : ∀ a, (![0, 0] : Fin 2 → Nat) a + S1024x1024.size a ≤ S1024x1024.size a
  h_S1024x1024 : 0 < S1024x1024.numel
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S16x64x64_S16x2048x64_S16x64x2048_2_2_1_1_0_0_wf : DotDims.WF S16x64x64 S16x2048x64 S16x64x2048 [2] [2] [1] [1] [0] [0]
  dot_S16x64x2048_S16x2048x64_S16x64x64_2_1_1_2_0_0_wf : DotDims.WF S16x64x2048 S16x2048x64 S16x64x64 [2] [1] [1] [2] [0] [0]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S2x2048x3072.size a
  hwx1_0 : ∀ i : grid1.Coords, EltTy.bits .bf16 = 32 ∨ (Rect.block (s := S2x2048x3072) S1x64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x3072.size a
  hwx1_1 : ∀ i : grid1.Coords, EltTy.bits .bf16 = 32 ∨ (Rect.block (s := S2x2048x3072) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x3072.size a
  hwx1_2 : ∀ i : grid1.Coords, EltTy.bits .bf16 = 32 ∨ (Rect.block (s := S2x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1024.size a ≤ S2x2048x1024.size a
  hwx1_3 : ∀ i : grid1.Coords, EltTy.bits .f32 = 32 ∨ (Rect.block (s := S2x2048x1024) S1x64x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S16x64x64_S16x2048x64_S16x64x2048_2_2_1_1_0_0 : DotDims S16x64x64 S16x2048x64 S16x64x2048 where
  lhsContracting := [2]
  rhsContracting := [2]
  lhsNonContracting := [1]
  rhsNonContracting := [1]
  lhsBatch := [0]
  rhsBatch := [0]
  wf := dot_S16x64x64_S16x2048x64_S16x64x2048_2_2_1_1_0_0_wf
def dot_S16x64x2048_S16x2048x64_S16x64x64_2_1_1_2_0_0 : DotDims S16x64x2048 S16x2048x64 S16x64x64 where
  lhsContracting := [2]
  rhsContracting := [1]
  lhsNonContracting := [1]
  rhsNonContracting := [2]
  lhsBatch := [0]
  rhsBatch := [0]
  wf := dot_S16x64x2048_S16x2048x64_S16x64x64_2_1_1_2_0_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KBodies.lean ====
/-
  The three kernel regions of the attention layer, one by one, at whatever contents `V` the TensorCore's buffers hold when
  the region is entered: the block each window shows the body at a grid point, what the body leaves in its output window's
  buffer (one store of the whole block: the body's arithmetic of the input blocks), the body's run on whole staging
  buffers, and the obligation the pipeline asks of the body at every point. Region 0 multiplies a block of 512 rows by
  the packed projection weight, region 1 is the attention of 64 query rows of one batch entry against that entry's keys
  and values, region 2 multiplies a block of 512 rows by the output weight. All of it at any float instance.
-/
import proofs.«129810_j60146722013367_2_alg».proof.Proof.Gen.Kernel.Launch
import proofs.«129810_j60146722013367_2_alg».proof.Proof.Gen.Kernel.Skeleton
import proofs.«129810_j60146722013367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: pipeline 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The output window's staging buffer after the body, from the input windows' blocks: its one store as a piece. -/
def out0_2 (x0 : Vec F S512x1024 .f32) (x1 : Vec F S3072x1024 .f32) : Vec F S512x3072 .bf16 :=
  View.canon [⟨r0_2, k0_pay1 (View.ld x0 r0_0) (View.ld x1 r0_1)⟩]

/-- The store is of the whole buffer, so it covers it. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 4000000 in
/-- The body on whole staging memrefs, the inputs' at read contents and the output's at anything, runs to the continuation
    holding the inputs' as they were and the output's at `out0_2` of the inputs'. -/
theorem sound_kernel0 (c : Dev nD) (E : Set ℕ) (i : grid0.Coords) (a0 : Memref sig .tc .vmem S512x1024 .f32) (ha0 : a0.IsWhole) (a1 : Memref sig .tc .vmem S3072x1024 .f32) (ha1 : a1.IsWhole) (a2 : Memref sig .tc .vmem S512x3072 .bf16) (ha2 : a2.IsWhole)
    (x0 : Vec F S512x1024 .f32) (x1 : Vec F S3072x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each input's
    buffer at its block and the output's at `out0_2` of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: pipeline 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x64x1024 := Rect.unit (s := S1x64x1024) ![0, 0, 0] S1x64x1024.size inb_S1x64x1024_S1x64x1024_0_0_0
abbrev r1_1 : Rect S1x2048x1024 := Rect.unit (s := S1x2048x1024) ![0, 0, 0] S1x2048x1024.size inb_S1x2048x1024_S1x2048x1024_0_0_0
abbrev r1_2 : Rect S1x2048x1024 := Rect.unit (s := S1x2048x1024) ![0, 0, 0] S1x2048x1024.size inb_S1x2048x1024_S1x2048x1024_0_0_0
abbrev r1_3 : Rect S1x64x1024 := Rect.unit (s := S1x64x1024) ![0, 0, 0] S1x64x1024.size inb_S1x64x1024_S1x64x1024_0_0_0

/-- The output window's staging buffer after the body, from the input windows' blocks: its one store as a piece. -/
def out1_3 (x0 : Vec F S1x64x1024 .bf16) (x1 : Vec F S1x2048x1024 .bf16) (x2 : Vec F S1x2048x1024 .bf16) : Vec F S1x64x1024 .f32 :=
  View.canon [⟨r1_3, k1_pay1 (View.ld x0 r1_0) (View.ld x1 r1_1) (View.ld x2 r1_2)⟩]

/-- The store is of the whole buffer, so it covers it. -/
theorem cover1_3 (p0 : Vec F S1x64x1024 .f32) (y : S1x64x1024.Idx) :
    ∃ pc ∈ ([⟨r1_3, p0⟩] : List (View.Piece (Elt F) S1x64x1024 .f32)), y ∈ pc.1.set :=
  View.cover_of_tiled [⟨r1_3, p0⟩] S1x64x1024.size (by rfl) y

set_option maxHeartbeats 4000000 in
/-- The body on whole staging memrefs, the inputs' at read contents and the output's at anything, runs to the continuation
    holding the inputs' as they were and the output's at `out1_3` of the inputs'. -/
theorem sound_kernel1 (c : Dev nD) (E : Set ℕ) (i : grid1.Coords) (a0 : Memref sig .tc .vmem S1x64x1024 .bf16) (ha0 : a0.IsWhole) (a1 : Memref sig .tc .vmem S1x2048x1024 .bf16) (ha1 : a1.IsWhole) (a2 : Memref sig .tc .vmem S1x2048x1024 .bf16) (ha2 : a2.IsWhole) (a3 : Memref sig .tc .vmem S1x64x1024 .f32) (ha3 : a3.IsWhole)
    (x0 : Vec F S1x64x1024 .bf16) (x1 : Vec F S1x2048x1024 .bf16) (x2 : Vec F S1x2048x1024 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Region 2: pipeline 2, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the input windows' blocks: its one store as a piece. -/
def out2_2 (x0 : Vec F S512x1024 .f32) (x1 : Vec F S1024x1024 .f32) : Vec F S512x1024 .f32 :=
  View.canon [⟨r2_2, k2_pay1 (View.ld x0 r2_0) (View.ld x1 r2_1)⟩]

/-- The store is of the whole buffer, so it covers it. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

set_option maxHeartbeats 4000000 in
/-- The body on whole staging memrefs, the inputs' at read contents and the output's at anything, runs to the continuation
    holding the inputs' as they were and the output's at `out2_2` of the inputs'. -/
theorem sound_kernel2 (c : Dev nD) (E : Set ℕ) (i : grid2.Coords) (a0 : Memref sig .tc .vmem S512x1024 .f32) (ha0 : a0.IsWhole) (a1 : Memref sig .tc .vmem S1024x1024 .f32) (ha1 : a1.IsWhole) (a2 : Memref sig .tc .vmem S512x1024 .f32) (ha2 : a2.IsWhole)
    (x0 : Vec F S512x1024 .f32) (x1 : Vec F S1024x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__matmul_kernel i a0 ha0 a1 ha1 a2 ha2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each input's
    buffer at its block and the output's at `out2_2` of the input blocks; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole layer: the buffer contents at every boundary between the host's reshapes and the three kernel
  regions (a fold from the launch memory: a reshape's result, or a region's output array at what its write-backs
  leave), each region as a segment entered from one boundary's contents and left at the next's, and the launch over the
  segments: every execution ends, faults nowhere, leaves the three argument arrays as launched, and leaves in the result
  buffer the last reshape of what region 2 wrote. At any float instance.
-/
import proofs.«129810_j60146722013367_2_alg».proof.Proof.KBodies

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array `main_v1` at what the write-backs leave, every other buffer as entered. -/
def W2 (c : Dev nD) : Valuation τ sig (Elt F) :=
  Function.update (W1 m ρ c) (Proc.devRef .tc main_v1) ((dat0 (V1 m ρ) c).arrAt 2 cfg0.N)
abbrev V2 : (c : Dev nD) → (b : Ref sig .tc) → Buf (Elt F) ((c : Thread nD τ).loc b) := fun c b => W2 m ρ c b
theorem W2_out (c : Dev nD) : W2 m ρ c (Proc.devRef .tc main_v1) = (dat0 (V1 m ρ) c).arrAt 2 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its output array `main_v3` at what the write-backs leave, every other buffer as entered. -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-- After the third reshape (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its output array `main_v5` at what the write-backs leave, every other buffer as entered. -/
def W6 (c : Dev nD) : Valuation τ sig (Elt F) :=
  Function.update (W5 m ρ c) (Proc.devRef .tc main_v5) ((dat2 (V5 m ρ) c).arrAt 2 cfg2.N)
abbrev V6 : (c : Dev nD) → (b : Ref sig .tc) → Buf (Elt F) ((c : Thread nD τ).loc b) := fun c b => W6 m ρ c b
theorem W6_out (c : Dev nD) : W6 m ρ c (Proc.devRef .tc main_v5) = (dat2 (V5 m ρ) c).arrAt 2 cfg2.N := by
  unfold W6; exact Function.update_self ..
theorem W6_of_ne (c : Dev nD) (b : Ref sig .tc) (hb : b ≠ main_v5) :
    W6 m ρ c (Proc.devRef .tc b) = W5 m ρ c (Proc.devRef .tc b) := by
  unfold W6; exact Function.update_of_ne (StableHlo.devRef_ne_of_ne hb) ..

theorem hF2 (c : Dev nD) (w : Fin cfg2.W) : (dat2 (V5 m ρ) c).arrAt w cfg2.N = V6 m ρ c (Pipeline.arrRef spec2 w) := by
  match w with
  | ⟨0, _⟩ => exact (((dat2 (V5 m ρ) c).arrAt_in 0 rfl _).trans (A_eq2 (V5 m ρ) c 0)).trans (W6_of_ne m ρ c _ (by decide)).symm
  | ⟨1, _⟩ => exact (((dat2 (V5 m ρ) c).arrAt_in 1 rfl _).trans (A_eq2 (V5 m ρ) c 1)).trans (W6_of_ne m ρ c _ (by decide)).symm
  | ⟨2, _⟩ => exact (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨2, Finset.mem_univ _, e.symm⟩)

/-- After the last reshape: what the program returns. -/
abbrev W7 : Dev nD → Valuation τ sig (Elt F) := fun c => StableHlo.after hostOps3 (W6 m ρ c)

/-! ## Region 1's one array read by three windows -/

/-- The shares: the query window the left half, the key window the left half of the rest, the value window what is left. -/
theorem share1_0 (c : Dev nD) : (dat1 (V3 m ρ) c).share 0 = fullShare.left := rfl
theorem share1_1 (c : Dev nD) : (dat1 (V3 m ρ) c).share 1 = fullShare.right.left := rfl
theorem share1_2 (c : Dev nD) : (dat1 (V3 m ρ) c).share 2 = fullShare.right.right := rfl
theorem share1_3 (c : Dev nD) : (dat1 (V3 m ρ) c).share 3 = fullShare := rfl

/-- A buffer held whole is held in three parts, and back. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) := by
  constructor
  · refine (pointsTo_share (PosShare.mem_left_op_right fullShare)).1.trans (sep_mono .rfl ?_)
    exact (pointsTo_share (PosShare.mem_left_op_right fullShare.right)).1
  · refine (sep_mono .rfl ?_).trans (pointsTo_share (PosShare.mem_left_op_right fullShare)).2
    exact (pointsTo_share (PosShare.mem_left_op_right fullShare.right)).2

/-- One buffer held whole beside another: the first dealt in three parts, -/
theorem deal3 {ℓ ℓ' : Loc nD τ sig} (f : Buf (Elt F) ℓ) (g : Buf (Elt F) ℓ') :
    (iprop((ℓ ↦{fullShare} f) ∗ (ℓ' ↦{fullShare} g)) : sProp 𝕄)
      ⊢ iprop((ℓ ↦{fullShare.left} f) ∗ (ℓ ↦{fullShare.right.left} f) ∗ (ℓ ↦{fullShare.right.right} f) ∗ (ℓ' ↦{fullShare} g)) := by
  have h3 := (three_shares (F := F) f).1
  iintro ⟨H2, H3⟩
  ihave H := h3 $$ H2
  icases H with ⟨Ha, Hb, Hc⟩
  isplitl [Ha]; · iexact Ha
  isplitl [Hb]; · iexact Hb
  isplitl [Hc]; · iexact Hc
  iexact H3

/-- and the three parts put together again. -/
theorem join3 {ℓ ℓ' : Loc nD τ sig} (f : Buf (Elt F) ℓ) (g : Buf (Elt F) ℓ') :
    (iprop((ℓ ↦{fullShare.left} f) ∗ (ℓ ↦{fullShare.right.left} f) ∗ (ℓ ↦{fullShare.right.right} f) ∗ (ℓ' ↦{fullShare} g)) : sProp 𝕄)
      ⊢ iprop((ℓ ↦{fullShare} f) ∗ (ℓ' ↦{fullShare} g)) := by
  iintro ⟨Ha, Hb, Hc, H3⟩
  isplitl [Ha Hb Hc]
  · iapply (three_shares (F := F) f).2
    isplitl [Ha]; · iexact Ha
    isplitl [Hb]; · iexact Hb
    iexact Hc
  iexact H3

/-- The buffers behind region 1's arrays: the packed projection and the region's result. -/
theorem image_arr1 : Finset.univ.image (Pipeline.arrRef spec1) = ({main_v2, main_v3} : Finset (Ref sig .tc)) := by decide

/-- ENTRY: the unscoped buffers at `V3` give region 1's arrays at their entry contents, the packed projection's full share dealt
    among the three windows reading it, and the buffers no window reads. -/
theorem hsplit1 (c : Dev nD) :
    (unscopedBufs c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [Pipeline.unscopedBufs_split₀ (fun p => (cfgs p)) 1 winFacts₀1.arr_unscoped c (V3 m ρ c)]
  refine sep_mono ?_ .rfl
  unfold Pipeline.arrBufs Dat.arrays
  rw [show Finset.image (Pipeline.arrRef (cfgs 1).spec) Finset.univ = ({main_v2, main_v3} : Finset (Ref sig .tc)) from image_arr1,
      BI.bigSep_insert (by decide), BI.bigSep_singleton, bigSep_W1]
  rw [(arr_whole1 0).set_eq_univ, (arr_whole1 3).set_eq_univ,
    share1_0, share1_1, share1_2, share1_3]
  exact deal3 (F := F) (V3 m ρ c main_v2) (V3 m ρ c main_v3)

/-- EXIT: region 1's arrays at their final contents (the packed projection untouched, its three parts one buffer again; the
    result at what the write-backs leave) and the buffers no window reads are the unscoped buffers at `V4`. -/
theorem hjoin1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs c (V4 m ρ c) : sProp 𝕄) := by
  rw [Pipeline.unscopedBufs_split₀ (fun p => (cfgs p)) 1 winFacts₀1.arr_unscoped c (V4 m ρ c)]
  refine sep_mono ?_ (Entails.of_eq ?_)
  · unfold Pipeline.arrBufs Dat.arrays
    rw [show Finset.image (Pipeline.arrRef (cfgs 1).spec) Finset.univ = ({main_v2, main_v3} : Finset (Ref sig .tc)) from image_arr1,
      BI.bigSep_insert (by decide), BI.bigSep_singleton, bigSep_W1]
    beta_reduce
    rw [(arr_whole1 0).set_eq_univ, (arr_whole1 3).set_eq_univ,
      share1_0, share1_1, share1_2, share1_3,
      ((dat1 (V3 m ρ) c).arrAt_in 0 rfl _), ((dat1 (V3 m ρ) c).arrAt_in 1 rfl _), ((dat1 (V3 m ρ) c).arrAt_in 2 rfl _),
      show V4 m ρ c main_v2 = V3 m ρ c main_v2 from W4_of_ne m ρ c main_v2 (by decide),
      show V4 m ρ c main_v3 = (dat1 (V3 m ρ) c).arrAt 3 cfg1.N from W4_out m ρ c]
    exact join3 (F := F) (V3 m ρ c main_v2) ((dat1 (V3 m ρ) c).arrAt 3 cfg1.N)
  · unfold Pipeline.unscopedRest
    exact BI.bigSep_congr fun b hb => by
      rw [show V4 m ρ c b = V3 m ρ c b from W4_of_ne m ρ c b fun e =>
        (Finset.mem_sdiff.mp hb).2 (e ▸ Finset.mem_image.mpr ⟨3, Finset.mem_univ _, rfl⟩)]

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its arrays
    are split out of the unscoped buffers and put back at the exit contents; the generator register goes into the
    region's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Three of its
    windows read one array, the packed projection: its full share is dealt among them at entry (`hsplit1`) and put
    together again at exit (`hjoin1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers and put back at the exit contents; the generator register goes into the
    region's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.KChain.lean ====
/-
  What the run leaves, read back: a reshape writes one buffer and leaves every other as it was, a region changes only its
  output array, so each argument array ends as launched — the frame, at any float instance — and the result buffer ends at
  the last reshape of region 2's output.
-/
import proofs.«129810_j60146722013367_2_alg».proof.Proof.KRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## A reshape leaves every buffer but its result alone -/

theorem W1_of_ne (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_of_ne (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))
theorem W5_of_ne (c : Dev nD) (b : Ref sig .tc) (hb : b ≠ main_v4) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem W7_of_ne (c : Dev nD) (b : Ref sig .tc) (hb : b ≠ main_v6) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments -/

/-- Argument 0 reaches the end as launched: no reshape writes it and no region may change it. -/
theorem W7_arg0 (c : Dev nD) : W7 m ρ c (Proc.devRef .tc main_arg0) = m ((c : Thread nD τ).loc main_arg0) :=
  (W7_of_ne m ρ c main_arg0 (by decide)).trans <| (W6_of_ne m ρ c main_arg0 (by decide)).trans <|
  (W5_of_ne m ρ c main_arg0 (by decide)).trans <| (W4_of_ne m ρ c main_arg0 (by decide)).trans <|
  (W3_of_ne m ρ c main_arg0 (by decide)).trans <| (W2_of_ne m ρ c main_arg0 (by decide)).trans <|
  (W1_of_ne m ρ c main_arg0 (by decide)).trans rfl
/-- Argument 1 reaches the end as launched: no reshape writes it and no region may change it. -/
theorem W7_arg1 (c : Dev nD) : W7 m ρ c (Proc.devRef .tc main_arg1) = m ((c : Thread nD τ).loc main_arg1) :=
  (W7_of_ne m ρ c main_arg1 (by decide)).trans <| (W6_of_ne m ρ c main_arg1 (by decide)).trans <|
  (W5_of_ne m ρ c main_arg1 (by decide)).trans <| (W4_of_ne m ρ c main_arg1 (by decide)).trans <|
  (W3_of_ne m ρ c main_arg1 (by decide)).trans <| (W2_of_ne m ρ c main_arg1 (by decide)).trans <|
  (W1_of_ne m ρ c main_arg1 (by decide)).trans rfl
/-- Argument 2 reaches the end as launched: no reshape writes it and no region may change it. -/
theorem W7_arg2 (c : Dev nD) : W7 m ρ c (Proc.devRef .tc main_arg2) = m ((c : Thread nD τ).loc main_arg2) :=
  (W7_of_ne m ρ c main_arg2 (by decide)).trans <| (W6_of_ne m ρ c main_arg2 (by decide)).trans <|
  (W5_of_ne m ρ c main_arg2 (by decide)).trans <| (W4_of_ne m ρ c main_arg2 (by decide)).trans <|
  (W3_of_ne m ρ c main_arg2 (by decide)).trans <| (W2_of_ne m ρ c main_arg2 (by decide)).trans <|
  (W1_of_ne m ρ c main_arg2 (by decide)).trans rfl

/-- THE FRAME at any float instance: every weakly fair execution ends, faults nowhere, and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all m ρ)

/-! ## The reshapes' results -/

theorem W1_v0 (c : Dev nD) : (W1 m ρ c (Proc.devRef .tc main_v0) : S4096x1024.Idx → Elt F .f32)
    = shapeCast S4096x1024 (m ((c : Thread nD τ).loc main_arg0)) shapeCasts_S2x2048x1024_S4096x1024 := by
  dsimp only [W1, hostOps0]; after_results; rfl
theorem W3_v2 (c : Dev nD) : (W3 m ρ c (Proc.devRef .tc main_v2) : S2x2048x3072.Idx → Elt F .bf16)
    = shapeCast S2x2048x3072 (W2 m ρ c (Proc.devRef .tc main_v1)) shapeCasts_S4096x3072_S2x2048x3072 := by
  dsimp only [W3, hostOps1]; after_results; rfl
theorem W5_v4 (c : Dev nD) : (W5 m ρ c (Proc.devRef .tc main_v4) : S4096x1024.Idx → Elt F .f32)
    = shapeCast S4096x1024 (W4 m ρ c (Proc.devRef .tc main_v3)) shapeCasts_S2x2048x1024_S4096x1024 := by
  dsimp only [W5, hostOps2]; after_results; rfl
theorem W7_v6 (c : Dev nD) : (W7 m ρ c (Proc.devRef .tc main_v6) : S2x2048x1024.Idx → Elt F .f32)
    = shapeCast S2x2048x1024 (W6 m ρ c (Proc.devRef .tc main_v5)) shapeCasts_S4096x1024_S2x2048x1024 := by
  dsimp only [W7, hostOps3]; after_results; rfl

end Cert.Kernel.Hand

end
-- ==== Proof.KIBodies.lean ====
/-
  The three kernel regions of the attention layer, one by one, at whatever contents `V` the TensorCore's buffers hold when
  the region is entered: the block each window shows the body at a grid point, what the body leaves in its output window's
  buffer (one store of the whole block: the body's arithmetic of the input blocks), the body's run on whole staging
  buffers, and the obligation the pipeline asks of the body at every point. Region 0 multiplies a block of 512 rows by
  the packed projection weight, region 1 is the attention of 64 query rows of one batch entry against that entry's keys
  and values, region 2 multiplies a block of 512 rows by the output weight. All of it at any float instance.
-/
import proofs.«129810_j60146722013367_2_alg».proof.Proof.Gen.KernelIdeal.Launch
import proofs.«129810_j60146722013367_2_alg».proof.Proof.Gen.KernelIdeal.Skeleton
import proofs.«129810_j60146722013367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: pipeline 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The output window's staging buffer after the body, from the input windows' blocks: its one store as a piece. -/
def out0_2 (x0 : Vec F S512x1024 .f32) (x1 : Vec F S3072x1024 .f32) : Vec F S512x3072 .bf16 :=
  View.canon [⟨r0_2, k0_pay1 (View.ld x0 r0_0) (View.ld x1 r0_1)⟩]

/-- The store is of the whole buffer, so it covers it. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 4000000 in
/-- The body on whole staging memrefs, the inputs' at read contents and the output's at anything, runs to the continuation
    holding the inputs' as they were and the output's at `out0_2` of the inputs'. -/
theorem sound_kernel0 (c : Dev nD) (E : Set ℕ) (i : grid0.Coords) (a0 : Memref sig .tc .vmem S512x1024 .f32) (ha0 : a0.IsWhole) (a1 : Memref sig .tc .vmem S3072x1024 .f32) (ha1 : a1.IsWhole) (a2 : Memref sig .tc .vmem S512x3072 .bf16) (ha2 : a2.IsWhole)
    (x0 : Vec F S512x1024 .f32) (x1 : Vec F S3072x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each input's
    buffer at its block and the output's at `out0_2` of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: pipeline 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x64x1024 := Rect.unit (s := S1x64x1024) ![0, 0, 0] S1x64x1024.size inb_S1x64x1024_S1x64x1024_0_0_0
abbrev r1_1 : Rect S1x2048x1024 := Rect.unit (s := S1x2048x1024) ![0, 0, 0] S1x2048x1024.size inb_S1x2048x1024_S1x2048x1024_0_0_0
abbrev r1_2 : Rect S1x2048x1024 := Rect.unit (s := S1x2048x1024) ![0, 0, 0] S1x2048x1024.size inb_S1x2048x1024_S1x2048x1024_0_0_0
abbrev r1_3 : Rect S1x64x1024 := Rect.unit (s := S1x64x1024) ![0, 0, 0] S1x64x1024.size inb_S1x64x1024_S1x64x1024_0_0_0

/-- The output window's staging buffer after the body, from the input windows' blocks: its one store as a piece. -/
def out1_3 (x0 : Vec F S1x64x1024 .bf16) (x1 : Vec F S1x2048x1024 .bf16) (x2 : Vec F S1x2048x1024 .bf16) : Vec F S1x64x1024 .f32 :=
  View.canon [⟨r1_3, k1_pay1 (View.ld x0 r1_0) (View.ld x1 r1_1) (View.ld x2 r1_2)⟩]

/-- The store is of the whole buffer, so it covers it. -/
theorem cover1_3 (p0 : Vec F S1x64x1024 .f32) (y : S1x64x1024.Idx) :
    ∃ pc ∈ ([⟨r1_3, p0⟩] : List (View.Piece (Elt F) S1x64x1024 .f32)), y ∈ pc.1.set :=
  View.cover_of_tiled [⟨r1_3, p0⟩] S1x64x1024.size (by rfl) y

set_option maxHeartbeats 4000000 in
/-- The body on whole staging memrefs, the inputs' at read contents and the output's at anything, runs to the continuation
    holding the inputs' as they were and the output's at `out1_3` of the inputs'. -/
theorem sound_kernel1 (c : Dev nD) (E : Set ℕ) (i : grid1.Coords) (a0 : Memref sig .tc .vmem S1x64x1024 .bf16) (ha0 : a0.IsWhole) (a1 : Memref sig .tc .vmem S1x2048x1024 .bf16) (ha1 : a1.IsWhole) (a2 : Memref sig .tc .vmem S1x2048x1024 .bf16) (ha2 : a2.IsWhole) (a3 : Memref sig .tc .vmem S1x64x1024 .f32) (ha3 : a3.IsWhole)
    (x0 : Vec F S1x64x1024 .bf16) (x1 : Vec F S1x2048x1024 .bf16) (x2 : Vec F S1x2048x1024 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Region 2: pipeline 2, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the input windows' blocks: its one store as a piece. -/
def out2_2 (x0 : Vec F S512x1024 .f32) (x1 : Vec F S1024x1024 .f32) : Vec F S512x1024 .f32 :=
  View.canon [⟨r2_2, k2_pay1 (View.ld x0 r2_0) (View.ld x1 r2_1)⟩]

/-- The store is of the whole buffer, so it covers it. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

set_option maxHeartbeats 4000000 in
/-- The body on whole staging memrefs, the inputs' at read contents and the output's at anything, runs to the continuation
    holding the inputs' as they were and the output's at `out2_2` of the inputs'. -/
theorem sound_kernel2 (c : Dev nD) (E : Set ℕ) (i : grid2.Coords) (a0 : Memref sig .tc .vmem S512x1024 .f32) (ha0 : a0.IsWhole) (a1 : Memref sig .tc .vmem S1024x1024 .f32) (ha1 : a1.IsWhole) (a2 : Memref sig .tc .vmem S512x1024 .f32) (ha2 : a2.IsWhole)
    (x0 : Vec F S512x1024 .f32) (x1 : Vec F S1024x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__matmul_kernel i a0 ha0 a1 ha1 a2 ha2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each input's
    buffer at its block and the output's at `out2_2` of the input blocks; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The run of the whole layer: the buffer contents at every boundary between the host's reshapes and the three kernel
  regions (a fold from the launch memory: a reshape's result, or a region's output array at what its write-backs
  leave), each region as a segment entered from one boundary's contents and left at the next's, and the launch over the
  segments: every execution ends, faults nowhere, leaves the three argument arrays as launched, and leaves in the result
  buffer the last reshape of what region 2 wrote. At any float instance.
-/
import proofs.«129810_j60146722013367_2_alg».proof.Proof.KIBodies

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array `main_v1` at what the write-backs leave, every other buffer as entered. -/
def W2 (c : Dev nD) : Valuation τ sig (Elt F) :=
  Function.update (W1 m ρ c) (Proc.devRef .tc main_v1) ((dat0 (V1 m ρ) c).arrAt 2 cfg0.N)
abbrev V2 : (c : Dev nD) → (b : Ref sig .tc) → Buf (Elt F) ((c : Thread nD τ).loc b) := fun c b => W2 m ρ c b
theorem W2_out (c : Dev nD) : W2 m ρ c (Proc.devRef .tc main_v1) = (dat0 (V1 m ρ) c).arrAt 2 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its output array `main_v3` at what the write-backs leave, every other buffer as entered. -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-- After the third reshape (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its output array `main_v5` at what the write-backs leave, every other buffer as entered. -/
def W6 (c : Dev nD) : Valuation τ sig (Elt F) :=
  Function.update (W5 m ρ c) (Proc.devRef .tc main_v5) ((dat2 (V5 m ρ) c).arrAt 2 cfg2.N)
abbrev V6 : (c : Dev nD) → (b : Ref sig .tc) → Buf (Elt F) ((c : Thread nD τ).loc b) := fun c b => W6 m ρ c b
theorem W6_out (c : Dev nD) : W6 m ρ c (Proc.devRef .tc main_v5) = (dat2 (V5 m ρ) c).arrAt 2 cfg2.N := by
  unfold W6; exact Function.update_self ..
theorem W6_of_ne (c : Dev nD) (b : Ref sig .tc) (hb : b ≠ main_v5) :
    W6 m ρ c (Proc.devRef .tc b) = W5 m ρ c (Proc.devRef .tc b) := by
  unfold W6; exact Function.update_of_ne (StableHlo.devRef_ne_of_ne hb) ..

theorem hF2 (c : Dev nD) (w : Fin cfg2.W) : (dat2 (V5 m ρ) c).arrAt w cfg2.N = V6 m ρ c (Pipeline.arrRef spec2 w) := by
  match w with
  | ⟨0, _⟩ => exact (((dat2 (V5 m ρ) c).arrAt_in 0 rfl _).trans (A_eq2 (V5 m ρ) c 0)).trans (W6_of_ne m ρ c _ (by decide)).symm
  | ⟨1, _⟩ => exact (((dat2 (V5 m ρ) c).arrAt_in 1 rfl _).trans (A_eq2 (V5 m ρ) c 1)).trans (W6_of_ne m ρ c _ (by decide)).symm
  | ⟨2, _⟩ => exact (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨2, Finset.mem_univ _, e.symm⟩)

/-- After the last reshape: what the program returns. -/
abbrev W7 : Dev nD → Valuation τ sig (Elt F) := fun c => StableHlo.after hostOps3 (W6 m ρ c)

/-! ## Region 1's one array read by three windows -/

/-- The shares: the query window the left half, the key window the left half of the rest, the value window what is left. -/
theorem share1_0 (c : Dev nD) : (dat1 (V3 m ρ) c).share 0 = fullShare.left := rfl
theorem share1_1 (c : Dev nD) : (dat1 (V3 m ρ) c).share 1 = fullShare.right.left := rfl
theorem share1_2 (c : Dev nD) : (dat1 (V3 m ρ) c).share 2 = fullShare.right.right := rfl
theorem share1_3 (c : Dev nD) : (dat1 (V3 m ρ) c).share 3 = fullShare := rfl

/-- A buffer held whole is held in three parts, and back. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) := by
  constructor
  · refine (pointsTo_share (PosShare.mem_left_op_right fullShare)).1.trans (sep_mono .rfl ?_)
    exact (pointsTo_share (PosShare.mem_left_op_right fullShare.right)).1
  · refine (sep_mono .rfl ?_).trans (pointsTo_share (PosShare.mem_left_op_right fullShare)).2
    exact (pointsTo_share (PosShare.mem_left_op_right fullShare.right)).2

/-- One buffer held whole beside another: the first dealt in three parts, -/
theorem deal3 {ℓ ℓ' : Loc nD τ sig} (f : Buf (Elt F) ℓ) (g : Buf (Elt F) ℓ') :
    (iprop((ℓ ↦{fullShare} f) ∗ (ℓ' ↦{fullShare} g)) : sProp 𝕄)
      ⊢ iprop((ℓ ↦{fullShare.left} f) ∗ (ℓ ↦{fullShare.right.left} f) ∗ (ℓ ↦{fullShare.right.right} f) ∗ (ℓ' ↦{fullShare} g)) := by
  have h3 := (three_shares (F := F) f).1
  iintro ⟨H2, H3⟩
  ihave H := h3 $$ H2
  icases H with ⟨Ha, Hb, Hc⟩
  isplitl [Ha]; · iexact Ha
  isplitl [Hb]; · iexact Hb
  isplitl [Hc]; · iexact Hc
  iexact H3

/-- and the three parts put together again. -/
theorem join3 {ℓ ℓ' : Loc nD τ sig} (f : Buf (Elt F) ℓ) (g : Buf (Elt F) ℓ') :
    (iprop((ℓ ↦{fullShare.left} f) ∗ (ℓ ↦{fullShare.right.left} f) ∗ (ℓ ↦{fullShare.right.right} f) ∗ (ℓ' ↦{fullShare} g)) : sProp 𝕄)
      ⊢ iprop((ℓ ↦{fullShare} f) ∗ (ℓ' ↦{fullShare} g)) := by
  iintro ⟨Ha, Hb, Hc, H3⟩
  isplitl [Ha Hb Hc]
  · iapply (three_shares (F := F) f).2
    isplitl [Ha]; · iexact Ha
    isplitl [Hb]; · iexact Hb
    iexact Hc
  iexact H3

/-- The buffers behind region 1's arrays: the packed projection and the region's result. -/
theorem image_arr1 : Finset.univ.image (Pipeline.arrRef spec1) = ({main_v2, main_v3} : Finset (Ref sig .tc)) := by decide

/-- ENTRY: the unscoped buffers at `V3` give region 1's arrays at their entry contents, the packed projection's full share dealt
    among the three windows reading it, and the buffers no window reads. -/
theorem hsplit1 (c : Dev nD) :
    (unscopedBufs c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [Pipeline.unscopedBufs_split₀ (fun p => (cfgs p)) 1 winFacts₀1.arr_unscoped c (V3 m ρ c)]
  refine sep_mono ?_ .rfl
  unfold Pipeline.arrBufs Dat.arrays
  rw [show Finset.image (Pipeline.arrRef (cfgs 1).spec) Finset.univ = ({main_v2, main_v3} : Finset (Ref sig .tc)) from image_arr1,
      BI.bigSep_insert (by decide), BI.bigSep_singleton, bigSep_W1]
  rw [(arr_whole1 0).set_eq_univ, (arr_whole1 3).set_eq_univ,
    share1_0, share1_1, share1_2, share1_3]
  exact deal3 (F := F) (V3 m ρ c main_v2) (V3 m ρ c main_v3)

/-- EXIT: region 1's arrays at their final contents (the packed projection untouched, its three parts one buffer again; the
    result at what the write-backs leave) and the buffers no window reads are the unscoped buffers at `V4`. -/
theorem hjoin1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs c (V4 m ρ c) : sProp 𝕄) := by
  rw [Pipeline.unscopedBufs_split₀ (fun p => (cfgs p)) 1 winFacts₀1.arr_unscoped c (V4 m ρ c)]
  refine sep_mono ?_ (Entails.of_eq ?_)
  · unfold Pipeline.arrBufs Dat.arrays
    rw [show Finset.image (Pipeline.arrRef (cfgs 1).spec) Finset.univ = ({main_v2, main_v3} : Finset (Ref sig .tc)) from image_arr1,
      BI.bigSep_insert (by decide), BI.bigSep_singleton, bigSep_W1]
    beta_reduce
    rw [(arr_whole1 0).set_eq_univ, (arr_whole1 3).set_eq_univ,
      share1_0, share1_1, share1_2, share1_3,
      ((dat1 (V3 m ρ) c).arrAt_in 0 rfl _), ((dat1 (V3 m ρ) c).arrAt_in 1 rfl _), ((dat1 (V3 m ρ) c).arrAt_in 2 rfl _),
      show V4 m ρ c main_v2 = V3 m ρ c main_v2 from W4_of_ne m ρ c main_v2 (by decide),
      show V4 m ρ c main_v3 = (dat1 (V3 m ρ) c).arrAt 3 cfg1.N from W4_out m ρ c]
    exact join3 (F := F) (V3 m ρ c main_v2) ((dat1 (V3 m ρ) c).arrAt 3 cfg1.N)
  · unfold Pipeline.unscopedRest
    exact BI.bigSep_congr fun b hb => by
      rw [show V4 m ρ c b = V3 m ρ c b from W4_of_ne m ρ c b fun e =>
        (Finset.mem_sdiff.mp hb).2 (e ▸ Finset.mem_image.mpr ⟨3, Finset.mem_univ _, rfl⟩)]

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its arrays
    are split out of the unscoped buffers and put back at the exit contents; the generator register goes into the
    region's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Three of its
    windows read one array, the packed projection: its full share is dealt among them at entry (`hsplit1`) and put
    together again at exit (`hjoin1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers and put back at the exit contents; the generator register goes into the
    region's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KIChain.lean ====
/-
  What the run leaves, read back: a reshape writes one buffer and leaves every other as it was, a region changes only its
  output array, so each argument array ends as launched — the frame, at any float instance — and the result buffer ends at
  the last reshape of region 2's output.
-/
import proofs.«129810_j60146722013367_2_alg».proof.Proof.KIRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## A reshape leaves every buffer but its result alone -/

theorem W1_of_ne (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_of_ne (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))
theorem W5_of_ne (c : Dev nD) (b : Ref sig .tc) (hb : b ≠ main_v4) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem W7_of_ne (c : Dev nD) (b : Ref sig .tc) (hb : b ≠ main_v6) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments -/

/-- Argument 0 reaches the end as launched: no reshape writes it and no region may change it. -/
theorem W7_arg0 (c : Dev nD) : W7 m ρ c (Proc.devRef .tc main_arg0) = m ((c : Thread nD τ).loc main_arg0) :=
  (W7_of_ne m ρ c main_arg0 (by decide)).trans <| (W6_of_ne m ρ c main_arg0 (by decide)).trans <|
  (W5_of_ne m ρ c main_arg0 (by decide)).trans <| (W4_of_ne m ρ c main_arg0 (by decide)).trans <|
  (W3_of_ne m ρ c main_arg0 (by decide)).trans <| (W2_of_ne m ρ c main_arg0 (by decide)).trans <|
  (W1_of_ne m ρ c main_arg0 (by decide)).trans rfl
/-- Argument 1 reaches the end as launched: no reshape writes it and no region may change it. -/
theorem W7_arg1 (c : Dev nD) : W7 m ρ c (Proc.devRef .tc main_arg1) = m ((c : Thread nD τ).loc main_arg1) :=
  (W7_of_ne m ρ c main_arg1 (by decide)).trans <| (W6_of_ne m ρ c main_arg1 (by decide)).trans <|
  (W5_of_ne m ρ c main_arg1 (by decide)).trans <| (W4_of_ne m ρ c main_arg1 (by decide)).trans <|
  (W3_of_ne m ρ c main_arg1 (by decide)).trans <| (W2_of_ne m ρ c main_arg1 (by decide)).trans <|
  (W1_of_ne m ρ c main_arg1 (by decide)).trans rfl
/-- Argument 2 reaches the end as launched: no reshape writes it and no region may change it. -/
theorem W7_arg2 (c : Dev nD) : W7 m ρ c (Proc.devRef .tc main_arg2) = m ((c : Thread nD τ).loc main_arg2) :=
  (W7_of_ne m ρ c main_arg2 (by decide)).trans <| (W6_of_ne m ρ c main_arg2 (by decide)).trans <|
  (W5_of_ne m ρ c main_arg2 (by decide)).trans <| (W4_of_ne m ρ c main_arg2 (by decide)).trans <|
  (W3_of_ne m ρ c main_arg2 (by decide)).trans <| (W2_of_ne m ρ c main_arg2 (by decide)).trans <|
  (W1_of_ne m ρ c main_arg2 (by decide)).trans rfl

/-- THE FRAME at any float instance: every weakly fair execution ends, faults nowhere, and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all m ρ)

/-! ## The reshapes' results -/

theorem W1_v0 (c : Dev nD) : (W1 m ρ c (Proc.devRef .tc main_v0) : S4096x1024.Idx → Elt F .f32)
    = shapeCast S4096x1024 (m ((c : Thread nD τ).loc main_arg0)) shapeCasts_S2x2048x1024_S4096x1024 := by
  dsimp only [W1, hostOps0]; after_results; rfl
theorem W3_v2 (c : Dev nD) : (W3 m ρ c (Proc.devRef .tc main_v2) : S2x2048x3072.Idx → Elt F .bf16)
    = shapeCast S2x2048x3072 (W2 m ρ c (Proc.devRef .tc main_v1)) shapeCasts_S4096x3072_S2x2048x3072 := by
  dsimp only [W3, hostOps1]; after_results; rfl
theorem W5_v4 (c : Dev nD) : (W5 m ρ c (Proc.devRef .tc main_v4) : S4096x1024.Idx → Elt F .f32)
    = shapeCast S4096x1024 (W4 m ρ c (Proc.devRef .tc main_v3)) shapeCasts_S2x2048x1024_S4096x1024 := by
  dsimp only [W5, hostOps2]; after_results; rfl
theorem W7_v6 (c : Dev nD) : (W7 m ρ c (Proc.devRef .tc main_v6) : S2x2048x1024.Idx → Elt F .f32)
    = shapeCast S2x2048x1024 (W6 m ρ c (Proc.devRef .tc main_v5)) shapeCasts_S4096x1024_S2x2048x1024 := by
  dsimp only [W7, hostOps3]; after_results; rfl

end Cert.KernelIdeal.Hand

end
-- ==== Proof.AttnSpec.lean ====
/-
  The attention layer both programs compute, stated once on the extended reals, entry by entry.

  Inputs: a batch of sequences x[b, s, d] (2 × 2048 × 1024), a packed projection weight w_qkv[e, d] (3072 × 1024, rows
  0–1023 the queries' weights, 1024–2047 the keys', 2048–3071 the values') and an output weight w_out[e, d]
  (1024 × 1024). Weights are stored [out, in], so a linear layer is y[b, s, e] = Σ_d x[b, s, d] · w[e, d].
  The 1024 columns of each third are 16 heads of 64 lanes: column h·64 + d is lane d of head h.
  For a batch entry b, a head h and a query position q the scores over the key positions k are
  (Σ_d Q[b,q,h·64+d] · K[b,k,h·64+d]) · 2⁻³; they are turned into weights by the softmax written with the row maximum
  taken out (exp (s − max) / Σ exp (s − max)), and the head's output lane d is Σ_k weight[k] · V[b,k,h·64+d].
  The heads' outputs side by side are again 1024 columns, which the output weight maps back.
  Nothing here depends on a literal's value: the scale and the maximum's starting value stay the words both programs
  print.
-/
import Idealize.ShloMosaic.PureOps.Ideal
import Idealize.ShloMosaic.Lib.ValueIdx

noncomputable section

open scoped BigOperators

namespace Cert.AttnSpec

open Idealize.ShloMosaic Idealize.ShloMosaic.ValueIdx

/-- A rank-3 array of extended reals. -/
abbrev A3 (a b c : Nat) : Type := (⟨3, ![a, b, c]⟩ : Shape).Idx → EReal
/-- A rank-2 array of extended reals. -/
abbrev A2 (a b : Nat) : Type := (⟨2, ![a, b]⟩ : Shape).Idx → EReal

/-- The scores' scale, 2⁻³, as the word both programs print. -/
def scale : EReal := Ideal.ofBits .f32 0x3E000000#32
/-- The value a row maximum starts from (−∞ as both programs print it). -/
def maxInit : EReal := Ideal.ofBits .f32 0xFF800000#32

/-- A linear layer without bias, the weight stored [out, in]: y[b, s, e] = Σ_d x[b, s, d] · w[e, d]. -/
def proj {n : Nat} (x : A3 2 2048 1024) (w : A2 n 1024) : A3 2 2048 n :=
  fun i => ∑ d : Fin 1024, x (ix3 (i 0) (i 1) d) * w (ix2 (i 2) d)

/-- Column of lane `d` of head `h` in third `part` (0 queries, 1 keys, 2 values) of the packed projection. -/
def col (part : Fin 3) (h : Fin 16) (d : Fin 64) : Fin 3072 :=
  ⟨part.val * 1024 + h.val * 64 + d.val, by have := part.isLt; have := h.isLt; have := d.isLt; omega⟩

/-- Column of lane `d` of head `h` among the 1024 merged columns. -/
def hcol (h : Fin 16) (d : Fin 64) : Fin 1024 :=
  ⟨h.val * 64 + d.val, by have := h.isLt; have := d.isLt; omega⟩

/-- The head of a merged column, -/
def headOf (j : Fin 1024) : Fin 16 := ⟨j.val / 64, by have := j.isLt; omega⟩
/-- and its lane. -/
def laneOf (j : Fin 1024) : Fin 64 := ⟨j.val % 64, Nat.mod_lt _ (by decide)⟩

theorem hcol_head_lane (j : Fin 1024) : hcol (headOf j) (laneOf j) = j :=
  Fin.ext (by simp only [hcol, headOf, laneOf]; omega)

/-! ## One head, one query position: the softmax-weighted sum over the key positions, on row functions

`qrow d` is the query's lane `d`, `krows k d` and `vrows k d` lane `d` of key and value position `k`. -/

/-- The scaled score against key position `k`. -/
def scoreF (qrow : Fin 64 → EReal) (krows : Fin 2048 → Fin 64 → EReal) (k : Fin 2048) : EReal :=
  (∑ d : Fin 64, qrow d * krows k d) * scale

/-- The largest score over the key positions (a fold of `max` from the starting value). -/
def rowMaxF (qrow : Fin 64 → EReal) (krows : Fin 2048 → Fin 64 → EReal) : EReal :=
  (Finset.univ : Finset (Fin 2048)).fold max maxInit (fun k => scoreF qrow krows k)

/-- The shifted exponential of a score. -/
def expoF (qrow : Fin 64 → EReal) (krows : Fin 2048 → Fin 64 → EReal) (k : Fin 2048) : EReal :=
  Ideal.exp (scoreF qrow krows k - rowMaxF qrow krows)

/-- The softmax's denominator. -/
def denomF (qrow : Fin 64 → EReal) (krows : Fin 2048 → Fin 64 → EReal) : EReal :=
  ∑ k : Fin 2048, expoF qrow krows k

/-- The attention weight of key position `k`. -/
def weightF (qrow : Fin 64 → EReal) (krows : Fin 2048 → Fin 64 → EReal) (k : Fin 2048) : EReal :=
  Ideal.div (expoF qrow krows k) (denomF qrow krows)

/-- The head's output lane `d`: the weighted sum of the values. -/
def headOutF (qrow : Fin 64 → EReal) (krows vrows : Fin 2048 → Fin 64 → EReal) (d : Fin 64) : EReal :=
  ∑ k : Fin 2048, weightF qrow krows k * vrows k d

/-! ## The layer on the packed projection -/

/-- One head's output lane for batch entry `b`, head `h`, query position `q`: the rows read out of the packed projection. -/
def headOut (qkv : A3 2 2048 3072) (b : Fin 2) (h : Fin 16) (q : Fin 2048) (d : Fin 64) : EReal :=
  headOutF (fun d' => qkv (ix3 b q (col 0 h d'))) (fun k d' => qkv (ix3 b k (col 1 h d')))
    (fun k d' => qkv (ix3 b k (col 2 h d'))) d

/-- The heads' outputs side by side: entry [b, q, h·64 + d] is lane `d` of head `h`. -/
def attn (qkv : A3 2 2048 3072) : A3 2 2048 1024 :=
  fun i => headOut qkv (i 0) (headOf (i 2)) (i 1) (laneOf (i 2))

/-- The whole layer. -/
def layer (x : A3 2 2048 1024) (wqkv : A2 3072 1024) (wout : A2 1024 1024) : A3 2 2048 1024 :=
  proj (attn (proj x wqkv)) wout

end Cert.AttnSpec

end
-- ==== Proof.LibMatmulTransposed.lean ====
/-
  A matrix product whose right operand is contracted along its LAST axis — rows × contraction times
  columns × contraction, no batch axis: the product of `l` with the transpose of `r` —, read at an entry on the
  extended reals.  As a vector unit's `matmul` into a zero accumulator and as the host's `dot_general`, entry
  `(p, c)` is the sum over `k` of `l (p, k) · r (c, k)`.  Generic in the three extents.
-/
import Idealize.ShloMosaic.Lib.ValueIdx
import Idealize.ShloMosaic.PureOps.Ideal.Laws

noncomputable section

namespace Cert.LibMatmulT

open Idealize.ShloMosaic Idealize.ShloMosaic.ValueIdx
open scoped BigOperators

theorem tr_rank (M K N : ℕ) : (DotDims.transposedRhs M K N).contr.rank = 1 := rfl
theorem tr_size (M K N : ℕ) : (DotDims.transposedRhs M K N).contr.size ⟨0, by rw [tr_rank]; exact Nat.one_pos⟩ = K := rfl

/-- The left operand is read in the entry's row. -/
theorem tr_lhs0 (M K N : ℕ) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil), dif_pos (show (0 : Fin 2) ∈ (DotDims.transposedRhs M K N).lhsNonContracting from List.mem_singleton.mpr rfl)]
  rfl

/-- The right operand is read in the row numbered by the entry's column. -/
theorem tr_rhs0 (M K N : ℕ) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil), dif_pos (show (0 : Fin 2) ∈ (DotDims.transposedRhs M K N).rhsNonContracting from List.mem_singleton.mpr rfl)]
  rfl

/-- Both operands are read, along their last axis, at the contraction's one coordinate. -/
theorem tr_lhs1 (M K N : ℕ) (j : (⟨2, ![M, N]⟩ : Shape).Idx) (q : (DotDims.transposedRhs M K N).contr.Idx) :
    ((DotDims.transposedRhs M K N).lhsIdx j q 1).val = (q ⟨0, by rw [tr_rank]; exact Nat.one_pos⟩).val :=
  (DotDims.transposedRhs M K N).lhsIdx_val_of_single rfl j q

theorem tr_rhs1 (M K N : ℕ) (j : (⟨2, ![M, N]⟩ : Shape).Idx) (q : (DotDims.transposedRhs M K N).contr.Idx) :
    ((DotDims.transposedRhs M K N).rhsIdx j q 1).val = (q ⟨0, by rw [tr_rank]; exact Nat.one_pos⟩).val :=
  (DotDims.transposedRhs M K N).rhsIdx_val_of_single rfl j q

/-- The contraction of `l` with the transpose of `r`, re-indexed by the one contracted coordinate. -/
theorem tr_dot_sum (M K N : ℕ) (l : (⟨2, ![M, K]⟩ : Shape).Idx → EReal) (r : (⟨2, ![N, K]⟩ : Shape).Idx → EReal)
    (p : Fin M) (c : Fin N) :
    ∑ q : (DotDims.transposedRhs M K N).contr.Idx, l ((DotDims.transposedRhs M K N).lhsIdx (ix2 p c) q) * r ((DotDims.transposedRhs M K N).rhsIdx (ix2 p c) q)
      = ∑ k : Fin K, l (ix2 p k) * r (ix2 c k) := by
  rw [← Equiv.sum_comp (contrEquiv1 (DotDims.transposedRhs M K N) K (tr_rank M K N) (tr_size M K N)).symm]
  refine Finset.sum_congr rfl fun k _ => ?_
  have hk := contrEquiv1_symm_val (DotDims.transposedRhs M K N) K (tr_rank M K N) (tr_size M K N) k
  have el : (DotDims.transposedRhs M K N).lhsIdx (ix2 p c) ((contrEquiv1 (DotDims.transposedRhs M K N) K (tr_rank M K N) (tr_size M K N)).symm k) = ix2 p k :=
    funext fun a => Fin.ext (by
      match a with
      | ⟨0, _⟩ => exact tr_lhs0 M K N _ _
      | ⟨1, _⟩ => exact (tr_lhs1 M K N _ _).trans hk)
  have er : (DotDims.transposedRhs M K N).rhsIdx (ix2 p c) ((contrEquiv1 (DotDims.transposedRhs M K N) K (tr_rank M K N) (tr_size M K N)).symm k) = ix2 c k :=
    funext fun a => Fin.ext (by
      match a with
      | ⟨0, _⟩ => exact tr_rhs0 M K N _ _
      | ⟨1, _⟩ => exact (tr_rhs1 M K N _ _).trans hk)
  rw [el, er]

/-- A `tpu.matmul` with these dimension numbers into the zero splat, at an entry: row `p` of `l` against row `c` of `r`. -/
theorem matmul_zero_transposedRhs (M K N : ℕ) (prec : Option ContractPrecision) {φ₁ φ₂ : FTy}
    (l : FVec Ideal ⟨2, ![M, K]⟩ φ₁) (r : FVec Ideal ⟨2, ![N, K]⟩ φ₂) (p : Fin M) (c : Fin N) :
    FloatOps.matmul (DotDims.transposedRhs M K N) prec l r (constant ⟨2, ![M, N]⟩ .f32 0x00000000#32) (ix2 p c) = ∑ k : Fin K, l (ix2 p k) * r (ix2 c k) :=
  (Ideal.matmul_constant_zero_apply (DotDims.transposedRhs M K N) prec l r (ix2 p c)).trans (tr_dot_sum M K N l r p c)

/-- The host's `dot_general` with these dimension numbers, at an entry: the same sum. -/
theorem dotGeneral_transposedRhs (M K N : ℕ) (prec : Option ContractPrecision) (sched : HostSchedule) {φ₁ φ₂ : FTy}
    (l : FVec Ideal ⟨2, ![M, K]⟩ φ₁) (r : FVec Ideal ⟨2, ![N, K]⟩ φ₂) (p : Fin M) (c : Fin N) :
    FloatOps.dotGeneral (DotDims.transposedRhs M K N) prec sched l r (ix2 p c) = ∑ k : Fin K, l (ix2 p k) * r (ix2 c k) :=
  (Ideal.dotGeneral_apply (DotDims.transposedRhs M K N) prec sched l r (ix2 p c)).trans (tr_dot_sum M K N l r p c)

end Cert.LibMatmulT

end
-- ==== Proof.BodyAttnOps.lean ====
/-
  The attention body's operations that are not entrywise, each read at explicit coordinates on the extended reals:
  the split of 1024 columns into 16 heads of 64 lanes with the heads brought first (and its inverse), a per-row value
  kept as a unit axis and spread along the keys again, the two products taken one head at a time (batch axis 0) as
  sums over their one contracted axis, and a row's maximum and sum over the key positions.
-/
import proofs.«129810_j60146722013367_2_alg».proof.Proof.Gen.KernelIdeal.Skeleton
import proofs.«129810_j60146722013367_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Idealize.SL.Sem
open Cert.AttnSpec

section Layout
variable {α : Type}

/-- Columns split into 16 heads of 64 lanes, heads brought first: entry (h, i, d) is entry (i, h·64 + d). -/
theorem split_heads_apply {n : ℕ} (x : (⟨2, ![n, 1024]⟩ : Shape).Idx → α)
    (h1 : (⟨2, ![n, 1024]⟩ : Shape).ShapeCasts ⟨3, ![n, 16, 64]⟩)
    (h2 : (⟨3, ![n, 16, 64]⟩ : Shape).Transposes [1, 0, 2] ⟨3, ![16, n, 64]⟩) (h : Fin 16) (i : Fin n) (d : Fin 64) :
    transpose ⟨3, ![16, n, 64]⟩ [1, 0, 2] (shapeCast ⟨3, ![n, 16, 64]⟩ x h1) h2 (ix3 h i d) = x (ix2 i (hcol h d)) := by
  refine (transpose_apply _ _ h2 _ (ix3 i h d) fun c => match c with | ⟨0, _⟩ => rfl | ⟨1, _⟩ => rfl | ⟨2, _⟩ => rfl).trans ?_
  refine shapeCast_apply x h1 _ _ ?_
  rw [Shape.rowMajor_val_two, Shape.rowMajor_val_three]
  show i.val * 1024 + (h.val * 64 + d.val) = (i.val * 16 + h.val) * 64 + d.val
  omega

/-- The inverse: heads put back side by side, entry (i, j) is entry (j / 64, i, j % 64). -/
theorem merge_heads_apply {n : ℕ} (y : (⟨3, ![16, n, 64]⟩ : Shape).Idx → α)
    (h1 : (⟨3, ![16, n, 64]⟩ : Shape).Transposes [1, 0, 2] ⟨3, ![n, 16, 64]⟩)
    (h2 : (⟨3, ![n, 16, 64]⟩ : Shape).ShapeCasts ⟨2, ![n, 1024]⟩) (i : Fin n) (j : Fin 1024) :
    shapeCast ⟨2, ![n, 1024]⟩ (transpose ⟨3, ![n, 16, 64]⟩ [1, 0, 2] y h1) h2 (ix2 i j) = y (ix3 (headOf j) i (laneOf j)) := by
  refine (shapeCast_apply _ h2 _ (ix3 i (headOf j) (laneOf j)) ?_).trans ?_
  · rw [Shape.rowMajor_val_two, Shape.rowMajor_val_three]
    show (i.val * 16 + j.val / 64) * 64 + j.val % 64 = i.val * 1024 + j.val
    omega
  · exact transpose_apply _ y h1 _ _ fun c => match c with | ⟨0, _⟩ => rfl | ⟨1, _⟩ => rfl | ⟨2, _⟩ => rfl

/-- A per-row value kept as a unit last axis and spread along it again: entry (h, i, k) is entry (h, i). -/
theorem keepdims_apply (m : S16x64.Idx → α) (h : Fin 16) (i : Fin 64) (kk : Fin 2048) :
    broadcastTo S16x64x2048 (shapeCast S16x64x1 m shapeCasts_S16x64_S16x64x1) broadcasts_S16x64x1_S16x64x2048 (ix3 h i kk) = m (ix2 h i) := by
  refine (broadcastTo_apply _ broadcasts_S16x64x1_S16x64x2048 _ (ix3 h i (0 : Fin 1)) fun a => match a with | ⟨0, _⟩ => rfl | ⟨1, _⟩ => rfl | ⟨2, _⟩ => rfl).trans ?_
  refine shapeCast_apply m _ _ _ ?_
  rw [Shape.rowMajor_val_two, Shape.rowMajor_val_three]
  show h.val * 64 + i.val = (h.val * 64 + i.val) * 1 + 0
  omega

end Layout

section Products

theorem qk_lhs0 (j : S16x64x2048.Idx) (q : dot_S16x64x64_S16x2048x64_S16x64x2048_2_2_1_1_0_0.contr.Idx) :
    (dot_S16x64x64_S16x2048x64_S16x64x2048_2_2_1_1_0_0.lhsIdx j q 0).val = (j 0).val := by
  unfold DotDims.lhsIdx
  rw [dif_pos (show (0 : Fin S16x64x64.rank) ∈ dot_S16x64x64_S16x2048x64_S16x64x2048_2_2_1_1_0_0.lhsBatch by decide)]
  rfl
theorem qk_lhs1 (j : S16x64x2048.Idx) (q : dot_S16x64x64_S16x2048x64_S16x64x2048_2_2_1_1_0_0.contr.Idx) :
    (dot_S16x64x64_S16x2048x64_S16x64x2048_2_2_1_1_0_0.lhsIdx j q 1).val = (j 1).val := by
  unfold DotDims.lhsIdx
  rw [dif_neg (show ¬(1 : Fin S16x64x64.rank) ∈ dot_S16x64x64_S16x2048x64_S16x64x2048_2_2_1_1_0_0.lhsBatch by decide), dif_pos (show (1 : Fin S16x64x64.rank) ∈ dot_S16x64x64_S16x2048x64_S16x64x2048_2_2_1_1_0_0.lhsNonContracting by decide)]
  rfl
theorem qk_lhs2 (j : S16x64x2048.Idx) (q : dot_S16x64x64_S16x2048x64_S16x64x2048_2_2_1_1_0_0.contr.Idx) :
    (dot_S16x64x64_S16x2048x64_S16x64x2048_2_2_1_1_0_0.lhsIdx j q 2).val = (q ⟨0, by decide⟩).val :=
  dot_S16x64x64_S16x2048x64_S16x64x2048_2_2_1_1_0_0.lhsIdx_val_of_single rfl j q
theorem qk_rhs0 (j : S16x64x2048.Idx) (q : dot_S16x64x64_S16x2048x64_S16x64x2048_2_2_1_1_0_0.contr.Idx) :
    (dot_S16x64x64_S16x2048x64_S16x64x2048_2_2_1_1_0_0.rhsIdx j q 0).val = (j 0).val := by
  unfold DotDims.rhsIdx
  rw [dif_pos (show (0 : Fin S16x2048x64.rank) ∈ dot_S16x64x64_S16x2048x64_S16x64x2048_2_2_1_1_0_0.rhsBatch by decide)]
  rfl
theorem qk_rhs1 (j : S16x64x2048.Idx) (q : dot_S16x64x64_S16x2048x64_S16x64x2048_2_2_1_1_0_0.contr.Idx) :
    (dot_S16x64x64_S16x2048x64_S16x64x2048_2_2_1_1_0_0.rhsIdx j q 1).val = (j 2).val := by
  unfold DotDims.rhsIdx
  rw [dif_neg (show ¬(1 : Fin S16x2048x64.rank) ∈ dot_S16x64x64_S16x2048x64_S16x64x2048_2_2_1_1_0_0.rhsBatch by decide), dif_pos (show (1 : Fin S16x2048x64.rank) ∈ dot_S16x64x64_S16x2048x64_S16x64x2048_2_2_1_1_0_0.rhsNonContracting by decide)]
  rfl
theorem qk_rhs2 (j : S16x64x2048.Idx) (q : dot_S16x64x64_S16x2048x64_S16x64x2048_2_2_1_1_0_0.contr.Idx) :
    (dot_S16x64x64_S16x2048x64_S16x64x2048_2_2_1_1_0_0.rhsIdx j q 2).val = (q ⟨0, by decide⟩).val :=
  dot_S16x64x64_S16x2048x64_S16x64x2048_2_2_1_1_0_0.rhsIdx_val_of_single rfl j q

/-- The scores' product, one head at a time: entry (h, i, k) is query row i of head h against key row k of head h. -/
theorem qk_apply {φ₁ φ₂ : FTy} (l : FVec Ideal S16x64x64 φ₁) (r : FVec Ideal S16x2048x64 φ₂) (h : Fin 16) (i : Fin 64) (kk : Fin 2048) :
    matmul dot_S16x64x64_S16x2048x64_S16x64x2048_2_2_1_1_0_0 none l r (constant S16x64x2048 .f32 0x00000000#32) (ix3 h i kk)
      = ∑ d : Fin 64, l (ix3 h i d) * r (ix3 h kk d) := by
  refine (Ideal.matmul_constant_zero_apply dot_S16x64x64_S16x2048x64_S16x64x2048_2_2_1_1_0_0 none l r (ix3 h i kk)).trans ?_
  rw [← Equiv.sum_comp (contrEquiv1 dot_S16x64x64_S16x2048x64_S16x64x2048_2_2_1_1_0_0 64 rfl rfl).symm]
  refine Finset.sum_congr rfl fun d _ => ?_
  have hd := contrEquiv1_symm_val dot_S16x64x64_S16x2048x64_S16x64x2048_2_2_1_1_0_0 64 rfl rfl d
  have el : dot_S16x64x64_S16x2048x64_S16x64x2048_2_2_1_1_0_0.lhsIdx (ix3 h i kk) ((contrEquiv1 dot_S16x64x64_S16x2048x64_S16x64x2048_2_2_1_1_0_0 64 rfl rfl).symm d) = ix3 h i d := funext fun a => Fin.ext (by
    match a with
    | ⟨0, _⟩ => exact qk_lhs0 _ _
    | ⟨1, _⟩ => exact qk_lhs1 _ _
    | ⟨2, _⟩ => exact (qk_lhs2 _ _).trans hd)
  have er : dot_S16x64x64_S16x2048x64_S16x64x2048_2_2_1_1_0_0.rhsIdx (ix3 h i kk) ((contrEquiv1 dot_S16x64x64_S16x2048x64_S16x64x2048_2_2_1_1_0_0 64 rfl rfl).symm d) = ix3 h kk d := funext fun a => Fin.ext (by
    match a with
    | ⟨0, _⟩ => exact qk_rhs0 _ _
    | ⟨1, _⟩ => exact qk_rhs1 _ _
    | ⟨2, _⟩ => exact (qk_rhs2 _ _).trans hd)
  rw [el, er]

theorem pv_lhs0 (j : S16x64x64.Idx) (q : dot_S16x64x2048_S16x2048x64_S16x64x64_2_1_1_2_0_0.contr.Idx) :
    (dot_S16x64x2048_S16x2048x64_S16x64x64_2_1_1_2_0_0.lhsIdx j q 0).val = (j 0).val := by
  unfold DotDims.lhsIdx
  rw [dif_pos (show (0 : Fin S16x64x2048.rank) ∈ dot_S16x64x2048_S16x2048x64_S16x64x64_2_1_1_2_0_0.lhsBatch by decide)]
  rfl
theorem pv_lhs1 (j : S16x64x64.Idx) (q : dot_S16x64x2048_S16x2048x64_S16x64x64_2_1_1_2_0_0.contr.Idx) :
    (dot_S16x64x2048_S16x2048x64_S16x64x64_2_1_1_2_0_0.lhsIdx j q 1).val = (j 1).val := by
  unfold DotDims.lhsIdx
  rw [dif_neg (show ¬(1 : Fin S16x64x2048.rank) ∈ dot_S16x64x2048_S16x2048x64_S16x64x64_2_1_1_2_0_0.lhsBatch by decide), dif_pos (show (1 : Fin S16x64x2048.rank) ∈ dot_S16x64x2048_S16x2048x64_S16x64x64_2_1_1_2_0_0.lhsNonContracting by decide)]
  rfl
theorem pv_lhs2 (j : S16x64x64.Idx) (q : dot_S16x64x2048_S16x2048x64_S16x64x64_2_1_1_2_0_0.contr.Idx) :
    (dot_S16x64x2048_S16x2048x64_S16x64x64_2_1_1_2_0_0.lhsIdx j q 2).val = (q ⟨0, by decide⟩).val :=
  dot_S16x64x2048_S16x2048x64_S16x64x64_2_1_1_2_0_0.lhsIdx_val_of_single rfl j q
theorem pv_rhs0 (j : S16x64x64.Idx) (q : dot_S16x64x2048_S16x2048x64_S16x64x64_2_1_1_2_0_0.contr.Idx) :
    (dot_S16x64x2048_S16x2048x64_S16x64x64_2_1_1_2_0_0.rhsIdx j q 0).val = (j 0).val := by
  unfold DotDims.rhsIdx
  rw [dif_pos (show (0 : Fin S16x2048x64.rank) ∈ dot_S16x64x2048_S16x2048x64_S16x64x64_2_1_1_2_0_0.rhsBatch by decide)]
  rfl
theorem pv_rhs1 (j : S16x64x64.Idx) (q : dot_S16x64x2048_S16x2048x64_S16x64x64_2_1_1_2_0_0.contr.Idx) :
    (dot_S16x64x2048_S16x2048x64_S16x64x64_2_1_1_2_0_0.rhsIdx j q 1).val = (q ⟨0, by decide⟩).val :=
  dot_S16x64x2048_S16x2048x64_S16x64x64_2_1_1_2_0_0.rhsIdx_val_of_single rfl j q
theorem pv_rhs2 (j : S16x64x64.Idx) (q : dot_S16x64x2048_S16x2048x64_S16x64x64_2_1_1_2_0_0.contr.Idx) :
    (dot_S16x64x2048_S16x2048x64_S16x64x64_2_1_1_2_0_0.rhsIdx j q 2).val = (j 2).val := by
  unfold DotDims.rhsIdx
  rw [dif_neg (show ¬(2 : Fin S16x2048x64.rank) ∈ dot_S16x64x2048_S16x2048x64_S16x64x64_2_1_1_2_0_0.rhsBatch by decide), dif_pos (show (2 : Fin S16x2048x64.rank) ∈ dot_S16x64x2048_S16x2048x64_S16x64x64_2_1_1_2_0_0.rhsNonContracting by decide)]
  rfl

/-- The weighted sum of the values, one head at a time: entry (h, i, d) sums over the key positions. -/
theorem pv_apply {φ₁ φ₂ : FTy} (l : FVec Ideal S16x64x2048 φ₁) (r : FVec Ideal S16x2048x64 φ₂) (h : Fin 16) (i : Fin 64) (d : Fin 64) :
    matmul dot_S16x64x2048_S16x2048x64_S16x64x64_2_1_1_2_0_0 none l r (constant S16x64x64 .f32 0x00000000#32) (ix3 h i d)
      = ∑ kk : Fin 2048, l (ix3 h i kk) * r (ix3 h kk d) := by
  refine (Ideal.matmul_constant_zero_apply dot_S16x64x2048_S16x2048x64_S16x64x64_2_1_1_2_0_0 none l r (ix3 h i d)).trans ?_
  rw [← Equiv.sum_comp (contrEquiv1 dot_S16x64x2048_S16x2048x64_S16x64x64_2_1_1_2_0_0 2048 rfl rfl).symm]
  refine Finset.sum_congr rfl fun kk _ => ?_
  have hk := contrEquiv1_symm_val dot_S16x64x2048_S16x2048x64_S16x64x64_2_1_1_2_0_0 2048 rfl rfl kk
  have el : dot_S16x64x2048_S16x2048x64_S16x64x64_2_1_1_2_0_0.lhsIdx (ix3 h i d) ((contrEquiv1 dot_S16x64x2048_S16x2048x64_S16x64x64_2_1_1_2_0_0 2048 rfl rfl).symm kk) = ix3 h i kk := funext fun a => Fin.ext (by
    match a with
    | ⟨0, _⟩ => exact pv_lhs0 _ _
    | ⟨1, _⟩ => exact pv_lhs1 _ _
    | ⟨2, _⟩ => exact (pv_lhs2 _ _).trans hk)
  have er : dot_S16x64x2048_S16x2048x64_S16x64x64_2_1_1_2_0_0.rhsIdx (ix3 h i d) ((contrEquiv1 dot_S16x64x2048_S16x2048x64_S16x64x64_2_1_1_2_0_0 2048 rfl rfl).symm kk) = ix3 h kk d := funext fun a => Fin.ext (by
    match a with
    | ⟨0, _⟩ => exact pv_rhs0 _ _
    | ⟨1, _⟩ => exact (pv_rhs1 _ _).trans hk
    | ⟨2, _⟩ => exact pv_rhs2 _ _)
  rw [el, er]

end Products

section Reductions

/-- The index over row (h, i) with key position k put on the reduced axis. -/
theorem lift_ix (h : Fin 16) (i : Fin 64) (kk : Fin 2048) :
    reduces_S16x64x2048_S16x64.lift (ix2 h i) kk = ix3 h i kk :=
  funext fun a => Fin.ext (match a with | ⟨0, _⟩ => rfl | ⟨1, _⟩ => rfl | ⟨2, _⟩ => rfl)

/-- A row's maximum over the key positions: the fold of max from the printed starting value. -/
theorem rowmax_apply (s : FVec Ideal S16x64x2048 .f32) (h : Fin 16) (i : Fin 64) :
    multiReduction (F := Ideal) .maximumf [2] S16x64 s 0xFF800000#32 reduces_S16x64x2048_S16x64 (.inl rfl) rfl (ix2 h i)
      = (Finset.univ : Finset (Fin 2048)).fold max maxInit (fun kk => s (ix3 h i kk)) := by
  refine (Ideal.multiReduction_maximumf_single s 0xFF800000#32 reduces_S16x64x2048_S16x64 (.inl rfl) rfl (ix2 h i)).trans ?_
  have e : s ∘ reduces_S16x64x2048_S16x64.lift (ix2 h i) = fun kk : Fin 2048 => s (ix3 h i kk) :=
    funext fun kk => congrArg s (lift_ix h i kk)
  rw [e]
  rfl

/-- A row's sum over the key positions. -/
theorem rowsum_apply (s : FVec Ideal S16x64x2048 .f32) (h : Fin 16) (i : Fin 64) :
    multiReduction (F := Ideal) .add [2] S16x64 s 0x00000000#32 reduces_S16x64x2048_S16x64 (.inl rfl) rfl (ix2 h i)
      = ∑ kk : Fin 2048, s (ix3 h i kk) := by
  refine (Ideal.multiReduction_add_single s 0x00000000#32 reduces_S16x64x2048_S16x64 (.inl rfl) rfl (ix2 h i)).trans ?_
  exact Finset.sum_congr rfl fun kk _ => congrArg s (lift_ix h i kk)

end Reductions

end Cert.KernelIdeal.BodyValue

end
-- ==== Proof.BodyAttn.lean ====
/-
  The attention body read at an entry, on the extended reals.

  The body splits the query block and the key and value blocks into 16 heads, takes each head's scaled scores
  against every key position, turns each row of scores into weights (the exponentials of the scores less the row's
  maximum, over their sum), sums the value rows with those weights, and puts the heads back side by side.  Read at
  entry (0, i, j), with j = h·64 + l, that is the specification's weighted sum for head h, query row i, lane l, on
  the rows of the three blocks.  Every change of format is the identity on the extended reals.
-/
import proofs.«129810_j60146722013367_2_alg».proof.Proof.BodyAttnOps

noncomputable section

open scoped BigOperators

namespace Cert.KernelIdeal.BodyValue

open Cert.KernelIdeal Cert.KernelIdeal.Gen Idealize.ShloMosaic Idealize.ShloMosaic.ValueIdx Idealize.SL.Sem
open Cert.AttnSpec

/-! ## The body's stages, named -/

/-- The query block, heads first: [1, 64, 1024] → [64, 1024] → [64, 16, 64] → [16, 64, 64]. -/
def qHeads (q : Vec Ideal S1x64x1024 .bf16) : FVec Ideal S16x64x64 .bf16 :=
  transpose S16x64x64 [1, 0, 2] (shapeCast S64x16x64 (shapeCast S64x1024 q shapeCasts_S1x64x1024_S64x1024) shapeCasts_S64x1024_S64x16x64)
    transposes_S64x16x64_p1_0_2_S16x64x64

/-- A key or value block, heads first: [1, 2048, 1024] → [2048, 1024] → [2048, 16, 64] → [16, 2048, 64]. -/
def kvHeads (k : Vec Ideal S1x2048x1024 .bf16) : FVec Ideal S16x2048x64 .bf16 :=
  transpose S16x2048x64 [1, 0, 2] (shapeCast S2048x16x64 (shapeCast S2048x1024 k shapeCasts_S1x2048x1024_S2048x1024) shapeCasts_S2048x1024_S2048x16x64)
    transposes_S2048x16x64_p1_0_2_S16x2048x64

/-- The scaled scores of every head, query row and key position. -/
def scores (qh : FVec Ideal S16x64x64 .bf16) (kh : FVec Ideal S16x2048x64 .bf16) : FVec Ideal S16x64x2048 .f32 :=
  mulf (matmul dot_S16x64x64_S16x2048x64_S16x64x2048_2_2_1_1_0_0 none qh kh (constant S16x64x2048 .f32 0x00000000#32))
    (broadcast S16x64x2048 (Scalar.ofBits (F := Ideal) .f32 0x3E000000#32))

/-- The exponentials of the scores less their row's maximum. -/
def shifted (s : FVec Ideal S16x64x2048 .f32) : FVec Ideal S16x64x2048 .f32 :=
  exp (subf s (broadcastTo S16x64x2048
    (shapeCast S16x64x1 (multiReduction (F := Ideal) .maximumf [2] S16x64 s 0xFF800000#32 reduces_S16x64x2048_S16x64 (.inl rfl) rfl) shapeCasts_S16x64_S16x64x1)
    broadcasts_S16x64x1_S16x64x2048))

/-- The weights: each exponential over its row's sum. -/
def weights (s : FVec Ideal S16x64x2048 .f32) : FVec Ideal S16x64x2048 .bf16 :=
  truncf .bf16 (divf (shifted s) (broadcastTo S16x64x2048
    (shapeCast S16x64x1 (multiReduction (F := Ideal) .add [2] S16x64 (shifted s) 0x00000000#32 reduces_S16x64x2048_S16x64 (.inl rfl) rfl) shapeCasts_S16x64_S16x64x1)
    broadcasts_S16x64x1_S16x64x2048)) bitsLt_bf16_f32

/-- The body is these stages, the weighted sum of the values, and the heads put back side by side. -/
theorem k1_pay1_eq (q : Vec Ideal S1x64x1024 .bf16) (k v : Vec Ideal S1x2048x1024 .bf16) :
    k1_pay1 (F := Ideal) q k v
      = shapeCast S1x64x1024 (shapeCast S64x1024 (transpose S64x16x64 [1, 0, 2]
          (matmul dot_S16x64x2048_S16x2048x64_S16x64x64_2_1_1_2_0_0 none (weights (scores (qHeads q) (kvHeads k))) (kvHeads v)
            (constant S16x64x64 .f32 0x00000000#32))
          transposes_S16x64x64_p1_0_2_S64x16x64) shapeCasts_S64x16x64_S64x1024) shapeCasts_S64x1024_S1x64x1024 := rfl

/-! ## Each stage at an entry -/

theorem qHeads_apply (q : Vec Ideal S1x64x1024 .bf16) (h : Fin 16) (i : Fin 64) (d : Fin 64) :
    qHeads q (ix3 h i d) = q (ix3 0 i (hcol h d)) :=
  (split_heads_apply _ shapeCasts_S64x1024_S64x16x64 transposes_S64x16x64_p1_0_2_S16x64x64 h i d).trans
    (shapeCast_1ab_ab_apply q shapeCasts_S1x64x1024_S64x1024 i (hcol h d))

theorem kvHeads_apply (k : Vec Ideal S1x2048x1024 .bf16) (h : Fin 16) (kk : Fin 2048) (d : Fin 64) :
    kvHeads k (ix3 h kk d) = k (ix3 0 kk (hcol h d)) :=
  (split_heads_apply _ shapeCasts_S2048x1024_S2048x16x64 transposes_S2048x16x64_p1_0_2_S16x2048x64 h kk d).trans
    (shapeCast_1ab_ab_apply k shapeCasts_S1x2048x1024_S2048x1024 kk (hcol h d))

theorem scores_apply (qh : FVec Ideal S16x64x64 .bf16) (kh : FVec Ideal S16x2048x64 .bf16) (h : Fin 16) (i : Fin 64) (kk : Fin 2048) :
    scores qh kh (ix3 h i kk) = scoreF (fun d => qh (ix3 h i d)) (fun kk d => kh (ix3 h kk d)) kk := by
  show matmul dot_S16x64x64_S16x2048x64_S16x64x2048_2_2_1_1_0_0 none qh kh (constant S16x64x2048 .f32 0x00000000#32) (ix3 h i kk) * scale = _
  rw [qk_apply]
  rfl

theorem shifted_apply (s : FVec Ideal S16x64x2048 .f32) (h : Fin 16) (i : Fin 64) (kk : Fin 2048) :
    shifted s (ix3 h i kk)
      = Ideal.exp (s (ix3 h i kk) - (Finset.univ : Finset (Fin 2048)).fold max maxInit (fun k => s (ix3 h i k))) := by
  show Ideal.exp (s (ix3 h i kk) - broadcastTo S16x64x2048 (shapeCast S16x64x1 _ shapeCasts_S16x64_S16x64x1) broadcasts_S16x64x1_S16x64x2048 (ix3 h i kk)) = _
  rw [keepdims_apply, rowmax_apply]

theorem weights_apply (s : FVec Ideal S16x64x2048 .f32) (h : Fin 16) (i : Fin 64) (kk : Fin 2048) :
    weights s (ix3 h i kk) = Ideal.div (shifted s (ix3 h i kk)) (∑ k : Fin 2048, shifted s (ix3 h i k)) := by
  show Ideal.div (shifted s (ix3 h i kk)) (broadcastTo S16x64x2048 (shapeCast S16x64x1 _ shapeCasts_S16x64_S16x64x1) broadcasts_S16x64x1_S16x64x2048 (ix3 h i kk)) = _
  rw [keepdims_apply, rowsum_apply]

/-! ## The body at an entry -/

/-- Entry (z, i, j) of the attention body: head j / 64's weighted sum of its value rows for query row i, lane j % 64. -/
theorem k1_pay1_apply (q : Vec Ideal S1x64x1024 .bf16) (k v : Vec Ideal S1x2048x1024 .bf16) (z : Fin 1) (i : Fin 64) (j : Fin 1024) :
    k1_pay1 (F := Ideal) q k v (ix3 z i j)
      = headOutF (fun d => q (ix3 0 i (hcol (headOf j) d))) (fun kk d => k (ix3 0 kk (hcol (headOf j) d)))
          (fun kk d => v (ix3 0 kk (hcol (headOf j) d))) (laneOf j) := by
  rw [k1_pay1_eq]
  refine (shapeCast_ab_1ab_apply _ shapeCasts_S64x1024_S1x64x1024 z i j).trans ?_
  refine (merge_heads_apply _ transposes_S16x64x64_p1_0_2_S64x16x64 shapeCasts_S64x16x64_S64x1024 i j).trans ?_
  refine (pv_apply _ _ (headOf j) i (laneOf j)).trans ?_
  have hs : ∀ kk : Fin 2048, scores (qHeads q) (kvHeads k) (ix3 (headOf j) i kk)
      = scoreF (fun d => q (ix3 0 i (hcol (headOf j) d))) (fun kk d => k (ix3 0 kk (hcol (headOf j) d))) kk := fun kk => by
    rw [scores_apply]
    simp only [qHeads_apply, kvHeads_apply]
  have hsh : ∀ kk : Fin 2048, shifted (scores (qHeads q) (kvHeads k)) (ix3 (headOf j) i kk)
      = expoF (fun d => q (ix3 0 i (hcol (headOf j) d))) (fun kk d => k (ix3 0 kk (hcol (headOf j) d))) kk := fun kk => by
    rw [shifted_apply]
    simp only [hs]
    rfl
  unfold headOutF
  refine Finset.sum_congr rfl fun kk _ => ?_
  rw [weights_apply, kvHeads_apply]
  simp only [hsh]
  rfl

end Cert.KernelIdeal.BodyValue

end
-- ==== Proof.BodyValue.lean ====
/-
  The three kernel bodies read at an entry, on the extended reals.

  The two projection bodies are a matrix product with the weight stored [out, in]: entry (r, e) of the stored
  block is Σ_d x[r, d] · w[e, d] (the changes of format are the identity on the extended reals, and the
  accumulator is the zero splat).  The attention body, at entry (0, i, h·64 + l), is the softmax-weighted sum of
  head h's value rows for query row i, lane l (proved in the module imported below).
-/
import proofs.«129810_j60146722013367_2_alg».proof.Proof.Gen.KernelIdeal.Skeleton
import proofs.«129810_j60146722013367_2_alg».proof.Proof.AttnSpec
import proofs.«129810_j60146722013367_2_alg».proof.Proof.LibMatmulTransposed
import proofs.«129810_j60146722013367_2_alg».proof.Proof.BodyAttn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Idealize.SL.Sem

/-- The packed projection's body: entry (r, e) is row r of the x-block against row e of the weight. -/
theorem k0_pay1_apply (x : Vec Ideal S512x1024 .f32) (w : Vec Ideal S3072x1024 .f32) (r : Fin 512) (e : Fin 3072) :
    k0_pay1 (F := Ideal) x w (ix2 r e) = ∑ d : Fin 1024, x (ix2 r d) * w (ix2 e d) := by
  unfold k0_pay1
  rw [shapeCast_self]
  exact Cert.LibMatmulT.matmul_zero_transposedRhs 512 1024 3072 none _ _ r e

/-- The output projection's body: the same product against the output weight. -/
theorem k2_pay1_apply (x : Vec Ideal S512x1024 .f32) (w : Vec Ideal S1024x1024 .f32) (r : Fin 512) (e : Fin 1024) :
    k2_pay1 (F := Ideal) x w (ix2 r e) = ∑ d : Fin 1024, x (ix2 r d) * w (ix2 e d) := by
  unfold k2_pay1
  rw [shapeCast_self]
  exact Cert.LibMatmulT.matmul_zero_transposedRhs 512 1024 1024 none _ _ r e

end Cert.KernelIdeal.BodyValue

end
-- ==== Proof.KIFinals02.lean ====
/-
  The two projection regions of the kernel, from blocks to whole arrays. Each grid point multiplies 512 rows of the
  input array by the whole weight (stored [out, in]) and writes the 512 result rows back; the eight points' row
  blocks tile the 4096 rows, so the output array ends at entry (r, e) as Σ_d x[r, d] · w[e, d] of the arrays the
  region found.
-/
import proofs.«129810_j60146722013367_2_alg».proof.Proof.KIBodies
import proofs.«129810_j60146722013367_2_alg».proof.Proof.BodyValue
import proofs.«129810_j60146722013367_2_alg».proof.Proof.AttnSpec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A linear layer without bias on a matrix of rows, the weight stored [out, in]: y[r, e] = Σ_d x[r, d] · w[e, d]. -/
def rowsProj {m n : Nat} (x : Cert.AttnSpec.A2 m 1024) (w : Cert.AttnSpec.A2 n 1024) : Cert.AttnSpec.A2 m n :=
  fun i => ∑ d : Fin 1024, x (ix2 (i 0) d) * w (ix2 (i 1) d)

theorem zeroOffsets2 : (![0, 0] : Fin 2 → Nat) = fun _ => 0 := funext fun a => by fin_cases a <;> rfl

/-! ## Region 0: the packed projection -/

/-- The printed index maps over the grid: the input rows move with the output rows, point `t` at row block `t`; the
    weight stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows `512·t … 512·t + 511` of the input array. -/
theorem iblk0_0_apply (c : Dev nD) (t : Fin cfg0.N) (x : S512x1024.Idx) (k : S4096x1024.Idx)
    (hk0 : (k 0).val = 512 * t.val + (x 0).val) (hk1 : (k 1).val = (x 1).val) :
    (iblk0 V c 0 t : Vec Ideal S512x1024 .f32) x = (V c main_v0 : S4096x1024.Idx → EReal) k := by
  obtain ⟨e0, e1, -, -, -, -⟩ := idx_facts0 t
  unfold iblk0
  rw [View.read_apply]
  show V c main_v0 _ = V c main_v0 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weight's block at every point is the whole weight. -/
theorem iblk0_1_apply (c : Dev nD) (t : Fin cfg0.N) (x : S3072x1024.Idx) :
    (iblk0 V c 1 t : Vec Ideal S3072x1024 .f32) x = (V c main_arg1 : S3072x1024.Idx → EReal) x := by
  obtain ⟨-, -, e2, e3, -, -⟩ := idx_facts0 t
  unfold iblk0
  rw [View.read_apply]
  show V c main_arg1 _ = V c main_arg1 _
  congr 1
  funext a
  apply Fin.ext
  match a with
  | ⟨0, _⟩ => show win0_1.index t 0 * 3072 + 1 * (x 0).val = (x 0).val; rw [e2]; omega
  | ⟨1, _⟩ => show win0_1.index t 1 * 1024 + 1 * (x 1).val = (x 1).val; rw [e3]; omega

/-- What the packed projection's array ends holding: entry (r, e) is row r of the input against row e of the weight. -/
def proj0 (c : Dev nD) : S4096x3072.Idx → EReal := rowsProj (m := 4096) (n := 3072) (V c main_v0) (V c main_arg1)

/-- The body's result at point `t`, entry by entry, is that function at the entry's place in the array. -/
theorem block0_apply (c : Dev nD) (t : Fin cfg0.N) (j : S512x3072.Idx) :
    k0_pay1 (F := Ideal) (iblk0 V c 0 t) (iblk0 V c 1 t) j = proj0 V c (((cfg0.win 2).blk t).view.emb j) := by
  obtain ⟨-, -, -, -, e4, e5⟩ := idx_facts0 t
  obtain ⟨r, e, rfl⟩ : ∃ (r : Fin 512) (e : Fin 3072), j = ix2 r e := ⟨j 0, j 1, eq_ix2 j⟩
  refine (Cert.KernelIdeal.BodyValue.k0_pay1_apply (iblk0 V c 0 t) (iblk0 V c 1 t) r e).trans ?_
  unfold proj0 rowsProj
  refine Finset.sum_congr rfl fun d _ => ?_
  have hr := r.isLt; have he := e.isLt
  refine congrArg₂ (· * ·) (iblk0_0_apply V c t (ix2 r d) _ ?_ rfl) ((iblk0_1_apply V c t (ix2 e d)).trans (congrArg _ ?_))
  · show win0_2.index t 0 * 512 + 1 * r.val = 512 * t.val + r.val; rw [e4]; omega
  · funext a
    apply Fin.ext
    match a with
    | ⟨0, _⟩ => show e.val = win0_2.index t 1 * 3072 + 1 * e.val; rw [e5]; omega
    | ⟨1, _⟩ => rfl

/-- What point `t` writes back is block `t` of that function. -/
theorem flushed0_eq (c : Dev nD) (t : Fin cfg0.N) :
    (dat0 V c).flushed 2 t = ((cfg0.win 2).blk t).view.read (Elt Ideal) (proj0 V c) := by
  show (cfg0.win 2).cut (grid0.coords t) ((dat0 V c).after 2 t) = _
  rw [after0_2]
  unfold out0_2
  rw [View.canon_unit_zero zeroOffsets2]
  simp only [View.ld_unit_zero (S := S512x1024) zeroOffsets2, View.ld_unit_zero (S := S3072x1024) zeroOffsets2]
  funext j
  exact block0_apply V c t j

/-- An index of the array is in point `t`'s block iff each coordinate is in the block's range on its axis. -/
theorem mem_blk0 (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v1).slice (win0_2.rect t)).set ↔ _
  rw [View.set_slice_whole, Rect.mem_set_unit]
  exact Iff.rfl

/-- Row `r` of the array is in the block of point `r / 512`. -/
theorem cover0 (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  have hN : cfg0.N = 8 := N_0
  let t : Fin cfg0.N := ⟨(i 0).val / 512, by rw [hN]; omega⟩
  obtain ⟨-, -, -, -, e4, e5⟩ := idx_facts0 t
  refine ⟨t, flush0_2 t, ?_⟩
  rw [mem_blk0]
  intro a
  match a with
  | ⟨0, _⟩ => show win0_2.index t 0 * 512 ≤ (i 0).val ∧ (i 0).val < win0_2.index t 0 * 512 + 512; rw [e4]; show (i 0).val / 512 * 512 ≤ (i 0).val ∧ (i 0).val < (i 0).val / 512 * 512 + 512; omega
  | ⟨1, _⟩ => show win0_2.index t 1 * 3072 ≤ (i 1).val ∧ (i 1).val < win0_2.index t 1 * 3072 + 3072; rw [e5]; omega

/-- The packed projection's array after region 0. -/
theorem final0 (c : Dev nD) : (dat0 V c).arrAt 2 cfg0.N = rowsProj (m := 4096) (n := 3072) (V c main_v0) (V c main_arg1) :=
  (dat0 V c).arrAt_eq_of_cover 2 (proj0 V c) (fun t _ => flushed0_eq V c t) cover0

/-! ## Region 2: the output projection -/

/-- The printed index maps over the grid: the input rows move with the output rows, point `t` at row block `t`; the
    weight stays at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t` is rows `512·t … 512·t + 511` of the input array. -/
theorem iblk2_0_apply (c : Dev nD) (t : Fin cfg2.N) (x : S512x1024.Idx) (k : S4096x1024.Idx)
    (hk0 : (k 0).val = 512 * t.val + (x 0).val) (hk1 : (k 1).val = (x 1).val) :
    (iblk2 V c 0 t : Vec Ideal S512x1024 .f32) x = (V c main_v4 : S4096x1024.Idx → EReal) k := by
  obtain ⟨e0, e1, -, -, -, -⟩ := idx_facts2 t
  unfold iblk2
  rw [View.read_apply]
  show V c main_v4 _ = V c main_v4 _
  congr 1
  funext a
  apply Fin.ext
  match a with
  | ⟨0, _⟩ => show win2_0.index t 0 * 512 + 1 * (x 0).val = (k 0).val; rw [e0, hk0]; omega
  | ⟨1, _⟩ => show win2_0.index t 1 * 1024 + 1 * (x 1).val = (k 1).val; rw [e1, hk1]; omega

/-- The weight's block at every point is the whole weight. -/
theorem iblk2_1_apply (c : Dev nD) (t : Fin cfg2.N) (x : S1024x1024.Idx) :
    (iblk2 V c 1 t : Vec Ideal S1024x1024 .f32) x = (V c main_arg2 : S1024x1024.Idx → EReal) x := by
  obtain ⟨-, -, e2, e3, -, -⟩ := idx_facts2 t
  unfold iblk2
  rw [View.read_apply]
  show V c main_arg2 _ = V c main_arg2 _
  congr 1
  funext a
  apply Fin.ext
  match a with
  | ⟨0, _⟩ => show win2_1.index t 0 * 1024 + 1 * (x 0).val = (x 0).val; rw [e2]; omega
  | ⟨1, _⟩ => show win2_1.index t 1 * 1024 + 1 * (x 1).val = (x 1).val; rw [e3]; omega

/-- What the output projection's array ends holding: entry (r, e) is row r of the input against row e of the weight. -/
def proj2 (c : Dev nD) : S4096x1024.Idx → EReal := rowsProj (m := 4096) (n := 1024) (V c main_v4) (V c main_arg2)

/-- The body's result at point `t`, entry by entry, is that function at the entry's place in the array. -/
theorem block2_apply (c : Dev nD) (t : Fin cfg2.N) (j : S512x1024.Idx) :
    k2_pay1 (F := Ideal) (iblk2 V c 0 t) (iblk2 V c 1 t) j = proj2 V c (((cfg2.win 2).blk t).view.emb j) := by
  obtain ⟨-, -, -, -, e4, e5⟩ := idx_facts2 t
  obtain ⟨r, e, rfl⟩ : ∃ (r : Fin 512) (e : Fin 1024), j = ix2 r e := ⟨j 0, j 1, eq_ix2 j⟩
  refine (Cert.KernelIdeal.BodyValue.k2_pay1_apply (iblk2 V c 0 t) (iblk2 V c 1 t) r e).trans ?_
  unfold proj2 rowsProj
  refine Finset.sum_congr rfl fun d _ => ?_
  have hr := r.isLt; have he := e.isLt
  refine congrArg₂ (· * ·) (iblk2_0_apply V c t (ix2 r d) _ ?_ rfl) ((iblk2_1_apply V c t (ix2 e d)).trans (congrArg _ ?_))
  · show win2_2.index t 0 * 512 + 1 * r.val = 512 * t.val + r.val; rw [e4]; omega
  · funext a
    apply Fin.ext
    match a with
    | ⟨0, _⟩ => show e.val = win2_2.index t 1 * 1024 + 1 * e.val; rw [e5]; omega
    | ⟨1, _⟩ => rfl

/-- What point `t` writes back is block `t` of that function. -/
theorem flushed2_eq (c : Dev nD) (t : Fin cfg2.N) :
    (dat2 V c).flushed 2 t = ((cfg2.win 2).blk t).view.read (Elt Ideal) (proj2 V c) := by
  show (cfg2.win 2).cut (grid2.coords t) ((dat2 V c).after 2 t) = _
  rw [after2_2]
  unfold out2_2
  rw [View.canon_unit_zero zeroOffsets2]
  simp only [View.ld_unit_zero (S := S512x1024) zeroOffsets2, View.ld_unit_zero (S := S1024x1024) zeroOffsets2]
  funext j
  exact block2_apply V c t j

/-- An index of the array is in point `t`'s block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v5).slice (win2_2.rect t)).set ↔ _
  rw [View.set_slice_whole, Rect.mem_set_unit]
  exact Iff.rfl

/-- Row `r` of the array is in the block of point `r / 512`. -/
theorem cover2 (i : S4096x1024.Idx) : ∃ t : Fin cfg2.N, (cfg2.win 2).flush t = true ∧ i ∈ ((cfg2.win 2).blk t).view.set := by
  have h0 : (i 0).val < 4096 := (i 0).isLt
  have h1 : (i 1).val < 1024 := (i 1).isLt
  have hN : cfg2.N = 8 := N_2
  let t : Fin cfg2.N := ⟨(i 0).val / 512, by rw [hN]; omega⟩
  obtain ⟨-, -, -, -, e4, e5⟩ := idx_facts2 t
  refine ⟨t, flush2_2 t, ?_⟩
  rw [mem_blk2]
  intro a
  match a with
  | ⟨0, _⟩ => show win2_2.index t 0 * 512 ≤ (i 0).val ∧ (i 0).val < win2_2.index t 0 * 512 + 512; rw [e4]; show (i 0).val / 512 * 512 ≤ (i 0).val ∧ (i 0).val < (i 0).val / 512 * 512 + 512; omega
  | ⟨1, _⟩ => show win2_2.index t 1 * 1024 ≤ (i 1).val ∧ (i 1).val < win2_2.index t 1 * 1024 + 1024; rw [e5]; omega

/-- The output projection's array after region 2. -/
theorem final2 (c : Dev nD) : (dat2 V c).arrAt 2 cfg2.N = rowsProj (m := 4096) (n := 1024) (V c main_v4) (V c main_arg2) :=
  (dat2 V c).arrAt_eq_of_cover 2 (proj2 V c) (fun t _ => flushed2_eq V c t) cover2

end Cert.KernelIdeal.Hand

end
-- ==== Proof.KIFinal1.lean ====
/-
  The attention region's output array after its run, as one function of the packed projection the region reads.

  The region's 64 grid points are the pairs (batch entry b, block si of 64 query rows).  At point (b, si) the body sees
  rows si·64 … si·64+63 of batch entry b's queries (columns 0–1023 of the packed projection) and all 2048 rows of that
  entry's keys (columns 1024–2047) and values (columns 2048–3071), and writes rows si·64 … of entry b of the output.
  The body's entry is the specification's weighted sum on the rows of those blocks; read where the blocks sit in the
  packed projection it is the specification's attention at that entry.  The 64 output blocks tile the array, so the
  array ends holding the attention of the packed projection.
-/
import proofs.«129810_j60146722013367_2_alg».proof.Proof.KIBodies
import proofs.«129810_j60146722013367_2_alg».proof.Proof.BodyValue
import proofs.«129810_j60146722013367_2_alg».proof.Proof.AttnSpec
import Idealize.ShloMosaic.Lib.Pipeline.Value
import Idealize.ShloMosaic.Lib.ValueIdx

noncomputable section

namespace Cert.KernelIdeal.Hand

open Cert.KernelIdeal Cert.KernelIdeal.Gen Idealize.ShloMosaic.ValueIdx
open Idealize.ShloMosaic Idealize.ShloMosaic.TcCoe Idealize.SL.Sem
open Idealize.ShloMosaic.Pipeline (Dat Cfg Window)
open Cert.AttnSpec

variable (V : (c : Dev nD) → (b : Ref sig .tc) → Buf (Elt Ideal) ((c : Thread nD τ).loc b))

/-- A whole-buffer access starts at the origin. -/
theorem origin3 : (![0, 0, 0] : Fin 3 → Nat) = fun _ => 0 := funext fun a => by fin_cases a <;> rfl

/-- The index maps, decided over the grid: the query block moves with the output block on the first two axes and sits
    in the first third of the columns; the key and value blocks follow the batch entry only, take all rows, and sit in
    the second and the last third; the output's block indices stay in their ranges. -/
theorem blocks_at : ∀ t : Fin cfg1.N,
      win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (0 : Fin 3) ≤ 1 ∧ win1_3.index t (1 : Fin 3) ≤ 31 ∧ win1_3.index t (2 : Fin 3) = 0 :=
  (by decide +kernel : ∀ t : Fin grid1.N, _)

/-- Every pair (batch entry, block of query rows) is some point's output block. -/
theorem blocks_onto : ∀ (q0 : Fin 2) (q1 : Fin 32), ∃ t : Fin cfg1.N, win1_3.index t = ![q0.val, q1.val, 0] :=
  (by decide +kernel : ∀ (q0 : Fin 2) (q1 : Fin 32), ∃ t : Fin grid1.N, win1_3.index t = ![q0.val, q1.val, 0])

/-- Column h·64 + d of the queries', the keys' and the values' third of the packed projection. -/
theorem col0_val (h : Fin 16) (d : Fin 64) : (col 0 h d).val = (hcol h d).val := by
  show (0 : Fin 3).val * 1024 + h.val * 64 + d.val = h.val * 64 + d.val
  rw [show (0 : Fin 3).val = 0 from rfl]; omega
theorem col1_val (h : Fin 16) (d : Fin 64) : (col 1 h d).val = 1024 + (hcol h d).val := by
  show (1 : Fin 3).val * 1024 + h.val * 64 + d.val = 1024 + (h.val * 64 + d.val)
  rw [show (1 : Fin 3).val = 1 from rfl]; omega
theorem col2_val (h : Fin 16) (d : Fin 64) : (col 2 h d).val = 2048 + (hcol h d).val := by
  show (2 : Fin 3).val * 1024 + h.val * 64 + d.val = 2048 + (h.val * 64 + d.val)
  rw [show (2 : Fin 3).val = 2 from rfl]; omega

/-- The body's entry at any index of its block. -/
theorem body_at (q : Vec Ideal S1x64x1024 .bf16) (k v : Vec Ideal S1x2048x1024 .bf16) (y : S1x64x1024.Idx) :
    k1_pay1 (F := Ideal) q k v y
      = headOutF (fun d => q (ix3 0 (y 1) (hcol (headOf (y 2)) d))) (fun kk d => k (ix3 0 kk (hcol (headOf (y 2)) d)))
          (fun kk d => v (ix3 0 kk (hcol (headOf (y 2)) d))) (laneOf (y 2)) :=
  (congrArg (k1_pay1 (F := Ideal) q k v) (eq_ix3 y)).trans (BodyValue.k1_pay1_apply q k v (y 0) (y 1) (y 2))

/-- The query block at point t: row r, column cc is the packed projection at (b, si·64 + r, cc). -/
theorem query_block (c : Dev nD) (t : Fin cfg1.N) (r : Fin 64) (cc : Fin 1024) (i : S2x2048x3072.Idx)
    (h0 : (i 0).val = win1_3.index t (0 : Fin 3)) (h1 : (i 1).val = win1_3.index t (1 : Fin 3) * 64 + r.val) (h2 : (i 2).val = cc.val) :
    iblk1 V c 0 t (ix3 0 r cc) = V c main_v2 i := by
  obtain ⟨e0, e1, e2, -⟩ := blocks_at t
  show V c main_v2 (((cfg1.win 0).blk t).view.emb (ix3 0 r cc)) = V c main_v2 i
  refine congrArg _ (funext fun a => Fin.ext ?_)
  match a with
  | ⟨0, _⟩ => show win1_0.index t (0 : Fin 3) * 1 + 1 * 0 = (i 0).val; omega
  | ⟨1, _⟩ => show win1_0.index t (1 : Fin 3) * 64 + 1 * r.val = (i 1).val; omega
  | ⟨2, _⟩ => show win1_0.index t (2 : Fin 3) * 1024 + 1 * cc.val = (i 2).val; omega

/-- The key block at point t: row kk, column cc is the packed projection at (b, kk, 1024 + cc). -/
theorem key_block (c : Dev nD) (t : Fin cfg1.N) (kk : Fin 2048) (cc : Fin 1024) (i : S2x2048x3072.Idx)
    (h0 : (i 0).val = win1_3.index t (0 : Fin 3)) (h1 : (i 1).val = kk.val) (h2 : (i 2).val = 1024 + cc.val) :
    iblk1 V c 1 t (ix3 0 kk cc) = V c main_v2 i := by
  obtain ⟨-, -, -, e0, e1, e2, -⟩ := blocks_at t
  show V c main_v2 (((cfg1.win 1).blk t).view.emb (ix3 0 kk cc)) = V c main_v2 i
  refine congrArg _ (funext fun a => Fin.ext ?_)
  match a with
  | ⟨0, _⟩ => show win1_1.index t (0 : Fin 3) * 1 + 1 * 0 = (i 0).val; omega
  | ⟨1, _⟩ => show win1_1.index t (1 : Fin 3) * 2048 + 1 * kk.val = (i 1).val; omega
  | ⟨2, _⟩ => show win1_1.index t (2 : Fin 3) * 1024 + 1 * cc.val = (i 2).val; omega

/-- The value block at point t: row kk, column cc is the packed projection at (b, kk, 2048 + cc). -/
theorem value_block (c : Dev nD) (t : Fin cfg1.N) (kk : Fin 2048) (cc : Fin 1024) (i : S2x2048x3072.Idx)
    (h0 : (i 0).val = win1_3.index t (0 : Fin 3)) (h1 : (i 1).val = kk.val) (h2 : (i 2).val = 2048 + cc.val) :
    iblk1 V c 2 t (ix3 0 kk cc) = V c main_v2 i := by
  obtain ⟨-, -, -, -, -, -, e0, e1, e2, -⟩ := blocks_at t
  show V c main_v2 (((cfg1.win 2).blk t).view.emb (ix3 0 kk cc)) = V c main_v2 i
  refine congrArg _ (funext fun a => Fin.ext ?_)
  match a with
  | ⟨0, _⟩ => show win1_2.index t (0 : Fin 3) * 1 + 1 * 0 = (i 0).val; omega
  | ⟨1, _⟩ => show win1_2.index t (1 : Fin 3) * 2048 + 1 * kk.val = (i 1).val; omega
  | ⟨2, _⟩ => show win1_2.index t (2 : Fin 3) * 1024 + 1 * cc.val = (i 2).val; omega

/-- The body's entry y at point t is the attention of the packed projection at the array index I under y. -/
theorem entry_at (c : Dev nD) (t : Fin cfg1.N) (y : S1x64x1024.Idx) (I : S2x2048x1024.Idx)
    (h0 : (I 0).val = win1_3.index t (0 : Fin 3)) (h1 : (I 1).val = win1_3.index t (1 : Fin 3) * 64 + (y 1).val) (h2 : I 2 = y 2) :
    k1_pay1 (F := Ideal) (iblk1 V c 0 t) (iblk1 V c 1 t) (iblk1 V c 2 t) y = attn (V c main_v2) I := by
  refine (body_at (iblk1 V c 0 t) (iblk1 V c 1 t) (iblk1 V c 2 t) y).trans ?_
  unfold attn headOut
  rw [h2]
  have hq : (fun d => iblk1 V c 0 t (ix3 0 (y 1) (hcol (headOf (y 2)) d)))
      = fun d' => V c main_v2 (ix3 (I 0) (I 1) (col 0 (headOf (y 2)) d')) :=
    funext fun d => query_block V c t (y 1) (hcol (headOf (y 2)) d) (ix3 (I 0) (I 1) (col 0 (headOf (y 2)) d)) h0 h1 (col0_val _ _)
  have hk : (fun kk d => iblk1 V c 1 t (ix3 0 kk (hcol (headOf (y 2)) d)))
      = fun kk d' => V c main_v2 (ix3 (I 0) kk (col 1 (headOf (y 2)) d')) :=
    funext fun kk => funext fun d => key_block V c t kk (hcol (headOf (y 2)) d) (ix3 (I 0) kk (col 1 (headOf (y 2)) d)) h0 rfl (col1_val _ _)
  have hv : (fun kk d => iblk1 V c 2 t (ix3 0 kk (hcol (headOf (y 2)) d)))
      = fun kk d' => V c main_v2 (ix3 (I 0) kk (col 2 (headOf (y 2)) d')) :=
    funext fun kk => funext fun d => value_block V c t kk (hcol (headOf (y 2)) d) (ix3 (I 0) kk (col 2 (headOf (y 2)) d)) h0 rfl (col2_val _ _)
  rw [hq, hk, hv]

/-- What point t writes back is block t of the attention of the packed projection. -/
theorem flushed1_eq (c : Dev nD) (t : Fin cfg1.N) :
    (dat1 V c).flushed 3 t = ((cfg1.win 3).blk t).view.read (Elt Ideal) (attn (V c main_v2)) := by
  show (cfg1.win 3).cut (grid1.coords t) ((dat1 V c).after 3 t) = _
  rw [after1_3]
  unfold out1_3
  rw [View.canon_unit_zero origin3]
  simp only [View.ld_unit_zero (S := S1x64x1024) origin3, View.ld_unit_zero (S := S1x2048x1024) origin3]
  obtain ⟨-, -, -, -, -, -, -, -, -, -, -, e2⟩ := blocks_at t
  funext y
  refine entry_at V c t y (((cfg1.win 3).blk t).view.emb y) ?_ ?_ ?_
  · show win1_3.index t (0 : Fin 3) * 1 + 1 * (y 0).val = _
    have hy : (y 0).val < 1 := (y 0).isLt
    omega
  · show win1_3.index t (1 : Fin 3) * 64 + 1 * (y 1).val = _
    omega
  · refine Fin.ext ?_
    show win1_3.index t (2 : Fin 3) * 1024 + 1 * (y 2).val = (y 2).val
    omega

/-- An index of the array is in point t's block iff each coordinate is in the block's range on its axis. -/
theorem mem_block1 (t : Fin cfg1.N) (i : S2x2048x1024.Idx) :
    i ∈ ((cfg1.win 3).blk t).view.set ↔ ∀ a : Fin 3, win1_3.index t a * S1x64x1024.size a ≤ (i a).val ∧ (i a).val < win1_3.index t a * S1x64x1024.size a + S1x64x1024.size a := by
  show i ∈ ((View.whole main_v3).slice (win1_3.rect t)).set ↔ _
  rw [View.set_slice_whole, Rect.mem_set_unit]
  exact Iff.rfl

/-- The output blocks tile the array: row s of batch entry b is in the block of the point (b, s / 64). -/
theorem covered1 (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := blocks_onto ⟨(i 0).val, hi0⟩ ⟨(i 1).val / 64, by omega⟩
  have q0 : win1_3.index t (0 : Fin 3) = (i 0).val := congrFun ht 0
  have q1 : win1_3.index t (1 : Fin 3) = (i 1).val / 64 := congrFun ht 1
  have q2 : win1_3.index t (2 : Fin 3) = 0 := congrFun ht 2
  refine ⟨t, flush1_3 t, ?_⟩
  rw [mem_block1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 1024 ≤ (i 2).val ∧ (i 2).val < win1_3.index t (2 : Fin 3) * 1024 + 1024; omega

/-- The output array after the region's run: the attention of the packed projection the region reads. -/
theorem final1 (c : Dev nD) : (dat1 V c).arrAt 3 cfg1.N = Cert.AttnSpec.attn (V c main_v2) :=
  (dat1 V c).arrAt_eq_of_cover 3 _ (fun t _ => flushed1_eq V c t) covered1

end Cert.KernelIdeal.Hand

end
-- ==== Proof.LibRowsMerged.lean ====
/-
  Merging and splitting the two leading axes of an array, read at an index.

  A reshape keeps the row-major order of the entries. So the [a·b, n] reshape of an [a, b, n] array has at row p·b + q,
  column e, the entry (p, q, e); and the [a, b, n] reshape of an [a·b, n] array has at (p, q, e) the entry at row
  p·b + q, column e. Stated for any entry type and any extents; the merged row count is its own variable, so the lemmas
  apply whether a shape spells it as a product or as a numeral.
-/
import Idealize.ShloMosaic.Lib.Pipeline.Value
import Idealize.ShloMosaic.Lib.ValueIdx

noncomputable section

namespace Cert.LibRowsMerged

open Idealize.ShloMosaic Idealize.ShloMosaic.ValueIdx

/-- The two leading axes merged: row `p·b + q` of the reshape is row `q` of plane `p`. -/
theorem merge_rows_apply {α : Type} {a b n ab : Nat} (x : (⟨3, ![a, b, n]⟩ : Shape).Idx → α)
    (h : (⟨3, ![a, b, n]⟩ : Shape).ShapeCasts ⟨2, ![ab, n]⟩) (p : Fin a) (q : Fin b) (e : Fin n) (r : Fin ab)
    (hr : r.val = p.val * b + q.val) :
    shapeCast ⟨2, ![ab, n]⟩ x h (ix2 r e) = x (ix3 p q e) :=
  shapeCast_apply x h _ _ (by
    rw [Shape.rowMajor_val_three, Shape.rowMajor_val_two]
    show (p.val * b + q.val) * n + e.val = r.val * n + e.val
    rw [hr])

/-- The leading axis split in two: entry `(p, q, e)` of the reshape is row `p·b + q`, column `e`. -/
theorem split_rows_apply {α : Type} {a b n ab : Nat} (x : (⟨2, ![ab, n]⟩ : Shape).Idx → α)
    (h : (⟨2, ![ab, n]⟩ : Shape).ShapeCasts ⟨3, ![a, b, n]⟩) (p : Fin a) (q : Fin b) (e : Fin n) (r : Fin ab)
    (hr : r.val = p.val * b + q.val) :
    shapeCast ⟨3, ![a, b, n]⟩ x h (ix3 p q e) = x (ix2 r e) :=
  shapeCast_apply x h _ _ (by
    rw [Shape.rowMajor_val_three, Shape.rowMajor_val_two]
    show r.val * n + e.val = (p.val * b + q.val) * n + e.val
    rw [hr])

end Cert.LibRowsMerged

end
-- ==== Proof.KIValue.lean ====
/-
  The idealized kernel's result as one function of its arguments. Between the regions the host only merges or splits the two
  leading axes, so: region 0 multiplies the input's merged rows by the packed weight, which read with the rows split again
  is the packed projection; region 1 leaves that projection's attention, head by head; region 2 multiplies its merged rows
  by the output weight; and the last reshape splits the rows: the attention layer, entry by entry.
-/
import proofs.«129810_j60146722013367_2_alg».proof.Proof.KIChain
import proofs.«129810_j60146722013367_2_alg».proof.Proof.KIFinals02
import proofs.«129810_j60146722013367_2_alg».proof.Proof.KIFinal1
import proofs.«129810_j60146722013367_2_alg».proof.Proof.LibRowsMerged
import proofs.«129810_j60146722013367_2_alg».proof.Proof.AttnSpec

set_option maxRecDepth 16384

noncomputable section

open scoped BigOperators

namespace Cert.KernelIdeal.Hand

open Cert.KernelIdeal Cert.KernelIdeal.Gen Cert.AttnSpec Cert.LibRowsMerged
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The merged row of batch entry `b`, position `s`. -/
def rowOf (b : Fin 2) (s : Fin 2048) : Fin 4096 := ⟨b.val * 2048 + s.val, by have := b.isLt; have := s.isLt; omega⟩

/-- Rows against rows, with the rows merged on the left: the linear layer read with the rows split. -/
theorem rowsProj_eq_proj {n : Nat} (x4 : A2 4096 1024) (w w' : A2 n 1024) (x : A3 2 2048 1024)
    (hx : ∀ (b : Fin 2) (s : Fin 2048) (d : Fin 1024), x4 (ix2 (rowOf b s) d) = x (ix3 b s d)) (hw : w = w')
    (b : Fin 2) (s : Fin 2048) (e : Fin n) :
    rowsProj x4 w (ix2 (rowOf b s) e) = proj x w' (ix3 b s e) := by
  subst hw
  show ∑ d : Fin 1024, x4 (ix2 (rowOf b s) d) * w (ix2 e d) = ∑ d : Fin 1024, x (ix3 b s d) * w (ix2 e d)
  exact Finset.sum_congr rfl fun d _ => by rw [hx]

/-! ## Region 0's operands: the input with its rows merged, and the packed weight untouched -/

theorem V1_v0_apply (c : Dev nD) (b : Fin 2) (s : Fin 2048) (d : Fin 1024) :
    V1 m ρ c main_v0 (ix2 (rowOf b s) d) = m ((c : Thread nD τ).loc main_arg0) (ix3 b s d) := by
  show W1 m ρ c (Proc.devRef .tc main_v0) (ix2 (rowOf b s) d) = _
  rw [W1_v0]
  exact merge_rows_apply _ _ b s d (rowOf b s) rfl

theorem V1_arg1 (c : Dev nD) : V1 m ρ c main_arg1 = m ((c : Thread nD τ).loc main_arg1) :=
  (W1_of_ne m ρ c main_arg1 (by decide)).trans rfl

/-! ## Region 1's operand: the packed projection -/

/-- The packed projection, its rows split again, is the linear layer of the input under the packed weight. -/
theorem V3_v2 (c : Dev nD) :
    (V3 m ρ c main_v2 : A3 2 2048 3072) = proj (m ((c : Thread nD τ).loc main_arg0)) (m ((c : Thread nD τ).loc main_arg1)) := by
  funext i
  obtain ⟨b, s, e, rfl⟩ : ∃ (b : Fin 2) (s : Fin 2048) (e : Fin 3072), i = ix3 b s e := ⟨i 0, i 1, i 2, eq_ix3 i⟩
  show W3 m ρ c (Proc.devRef .tc main_v2) (ix3 b s e) = _
  rw [W3_v2]
  refine (split_rows_apply _ _ b s e (rowOf b s) rfl).trans ?_
  rw [W2_out, final0]
  exact rowsProj_eq_proj _ _ _ _ (V1_v0_apply m ρ c) (V1_arg1 m ρ c) b s e

/-! ## Region 2's operands: the heads' outputs with their rows merged, and the output weight untouched -/

/-- Region 1 leaves the attention of the packed projection. -/
theorem W4_v3 (c : Dev nD) :
    (W4 m ρ c (Proc.devRef .tc main_v3) : A3 2 2048 1024)
      = attn (proj (m ((c : Thread nD τ).loc main_arg0)) (m ((c : Thread nD τ).loc main_arg1))) := by
  rw [W4_out, final1, V3_v2]

theorem V5_v4_apply (c : Dev nD) (b : Fin 2) (s : Fin 2048) (d : Fin 1024) :
    V5 m ρ c main_v4 (ix2 (rowOf b s) d)
      = attn (proj (m ((c : Thread nD τ).loc main_arg0)) (m ((c : Thread nD τ).loc main_arg1))) (ix3 b s d) := by
  show W5 m ρ c (Proc.devRef .tc main_v4) (ix2 (rowOf b s) d) = _
  rw [W5_v4]
  refine (merge_rows_apply _ _ b s d (rowOf b s) rfl).trans ?_
  rw [W4_v3]

theorem V5_arg2 (c : Dev nD) : V5 m ρ c main_arg2 = m ((c : Thread nD τ).loc main_arg2) :=
  (W5_of_ne m ρ c main_arg2 (by decide)).trans <| (W4_of_ne m ρ c main_arg2 (by decide)).trans <|
  (W3_of_ne m ρ c main_arg2 (by decide)).trans <| (W2_of_ne m ρ c main_arg2 (by decide)).trans <|
  (W1_of_ne m ρ c main_arg2 (by decide)).trans rfl

/-! ## The result -/

/-- THE VALUE: the result buffer ends holding the attention layer of the three arguments. -/
theorem kernel_value (c : Dev nD) :
    (W7 m ρ c (Proc.devRef .tc main_v6) : A3 2 2048 1024)
      = layer (m ((c : Thread nD τ).loc main_arg0)) (m ((c : Thread nD τ).loc main_arg1)) (m ((c : Thread nD τ).loc main_arg2)) := by
  funext i
  obtain ⟨b, s, e, rfl⟩ : ∃ (b : Fin 2) (s : Fin 2048) (e : Fin 1024), i = ix3 b s e := ⟨i 0, i 1, i 2, eq_ix3 i⟩
  rw [W7_v6]
  refine (split_rows_apply _ _ b s e (rowOf b s) rfl).trans ?_
  rw [W6_out, final2]
  exact rowsProj_eq_proj _ _ _ _ (V5_v4_apply m ρ c) (V5_arg2 m ρ c) b s e

/-- THE RUN, read: every weakly fair execution ends, faults nowhere, leaves the attention layer of the arguments in the result
    buffer and the three arguments as launched. -/
theorem kernel_run : θ_run defs (onTc (τ := τ) (main (F := Ideal))) ⟨m, fun _ => 0, ρ⟩ (fun r => ∀ c : Dev nD,
      r.2.mem ((c.tc : Thread nD τ).loc main_v6)
        = layer (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (kernel_value m ρ c),
     (h c _ (mem_uc main_arg0 (by decide))).trans (W7_arg0 m ρ c),
     (h c _ (mem_uc main_arg1 (by decide))).trans (W7_arg1 m ρ c),
     (h c _ (mem_uc main_arg2 (by decide))).trans (W7_arg2 m ρ c)⟩) (run_all m ρ)

end Cert.KernelIdeal.Hand

end
-- ==== Proof.RefHeads.lean ====
/-
  The reference's first stages read at an index: the packed projection, and the three head splits
  (a reshape of the 1024 columns of a third into 16 heads of 64 lanes, then the heads moved in front of the positions)
  as plain column arithmetic: lane d of head h is column h·64 + d of its third.
-/
import proofs.«129810_j60146722013367_2_alg».proof.Proof.Gen.ReferenceIdeal.Read
import proofs.«129810_j60146722013367_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnSpec

/-- The packed projection: the first stage is the linear layer with the packed weight. -/
theorem qkv_eq (x0 : A3 2 2048 1024) (x1 : A2 3072 1024) :
    val_main_v0 (F := Ideal) x0 x1 = proj x0 x1 := by
  funext i
  rw [val_main_v0_apply]
  unfold proj
  refine Finset.sum_congr rfl fun k _ => ?_
  have e1 : lidx_main_v0 i k = ix3 (i 0) (i 1) k := funext fun a => Fin.ext (by match a with | ⟨0, _⟩ => rfl | ⟨1, _⟩ => rfl | ⟨2, _⟩ => rfl)
  have e2 : ridx_main_v0 i k = ix2 (i 2) k := funext fun a => Fin.ext (by match a with | ⟨0, _⟩ => rfl | ⟨1, _⟩ => rfl)
  exact congrArg₂ (· * ·) (congrArg x0 e1) (congrArg x1 e2)

/-- Lane `d` of head `h` of the queries at position `q` is column `h·64 + d` of the first third of the packed projection. -/
theorem qhead (x0 : A3 2 2048 1024) (x1 : A2 3072 1024) (b : Fin 2) (h : Fin 16) (q : Fin 2048) (d : Fin 64) :
    val_main_v5 (F := Ideal) x0 x1 (ix4 b h q d) = val_main_v0 (F := Ideal) x0 x1 (ix3 b q (col 0 h d)) := by
  rw [val_main_v5_apply, val_main_v4_apply, val_main_v1_apply]
  refine congrArg _ (funext fun a => Fin.ext ?_)
  have hb := b.isLt; have hh := h.isLt; have hq := q.isLt; have hd := d.isLt
  match a with
  | ⟨0, _⟩ => show ((((b.val * 2048 + q.val) * 16 + h.val) * 64 + d.val) / 2097152) = b.val; omega
  | ⟨1, _⟩ => show ((((b.val * 2048 + q.val) * 16 + h.val) * 64 + d.val) / 1024 % 2048) = q.val; omega
  | ⟨2, _⟩ => show ((((b.val * 2048 + q.val) * 16 + h.val) * 64 + d.val) % 1024) = (0 : Fin 3).val * 1024 + h.val * 64 + d.val; simp only [Fin.val_zero]; omega

/-- Lane `d` of head `h` of the keys at position `k` is column `h·64 + d` of the second third. -/
theorem khead (x0 : A3 2 2048 1024) (x1 : A2 3072 1024) (b : Fin 2) (h : Fin 16) (k : Fin 2048) (d : Fin 64) :
    val_main_v7 (F := Ideal) x0 x1 (ix4 b h k d) = val_main_v0 (F := Ideal) x0 x1 (ix3 b k (col 1 h d)) := by
  rw [val_main_v7_apply, val_main_v6_apply, val_main_v2_apply]
  refine congrArg _ (funext fun a => Fin.ext ?_)
  have hb := b.isLt; have hh := h.isLt; have hk := k.isLt; have hd := d.isLt
  match a with
  | ⟨0, _⟩ => show ((((b.val * 2048 + k.val) * 16 + h.val) * 64 + d.val) / 2097152) = b.val; omega
  | ⟨1, _⟩ => show ((((b.val * 2048 + k.val) * 16 + h.val) * 64 + d.val) / 1024 % 2048) = k.val; omega
  | ⟨2, _⟩ => show 1024 + ((((b.val * 2048 + k.val) * 16 + h.val) * 64 + d.val) % 1024) = (1 : Fin 3).val * 1024 + h.val * 64 + d.val; simp only [Fin.val_one]; omega

/-- Lane `d` of head `h` of the values at position `k` is column `h·64 + d` of the last third. -/
theorem vhead (x0 : A3 2 2048 1024) (x1 : A2 3072 1024) (b : Fin 2) (h : Fin 16) (k : Fin 2048) (d : Fin 64) :
    val_main_v9 (F := Ideal) x0 x1 (ix4 b h k d) = val_main_v0 (F := Ideal) x0 x1 (ix3 b k (col 2 h d)) := by
  rw [val_main_v9_apply, val_main_v8_apply, val_main_v3_apply]
  refine congrArg _ (funext fun a => Fin.ext ?_)
  have hb := b.isLt; have hh := h.isLt; have hk := k.isLt; have hd := d.isLt
  match a with
  | ⟨0, _⟩ => show ((((b.val * 2048 + k.val) * 16 + h.val) * 64 + d.val) / 2097152) = b.val; omega
  | ⟨1, _⟩ => show ((((b.val * 2048 + k.val) * 16 + h.val) * 64 + d.val) / 1024 % 2048) = k.val; omega
  | ⟨2, _⟩ => show 2048 + ((((b.val * 2048 + k.val) * 16 + h.val) * 64 + d.val) % 1024) = (2 : Fin 3).val * 1024 + h.val * 64 + d.val; simp only [Fin.val_two]; omega

end Cert.ReferenceIdeal.RefValue

end
-- ==== Proof.RefStages.lean ====
/-
  The reference's attention stages read at an index, one head and one query position at a time: scores, the row
  maximum, the shifted exponentials, their sum, the weights, the weighted sum of the values, the heads merged back,
  and the output projection. Each is the specification's function of the packed projection's rows.
-/
import proofs.«129810_j60146722013367_2_alg».proof.Proof.Gen.ReferenceIdeal.Read
import proofs.«129810_j60146722013367_2_alg».proof.Proof.AttnSpec
import proofs.«129810_j60146722013367_2_alg».proof.Proof.RefHeads

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnSpec

/-- The scaled score of query position `q` against key position `k` in head `h`. -/
theorem score_eq (x0 : A3 2 2048 1024) (x1 : A2 3072 1024) (b : Fin 2) (h : Fin 16) (q k : Fin 2048) :
    val_main_v12 (F := Ideal) x0 x1 (ix4 b h q k) = scoreF (fun d' => val_main_v0 (F := Ideal) x0 x1 (ix3 b q (col 0 h d'))) (fun k' d' => val_main_v0 (F := Ideal) x0 x1 (ix3 b k' (col 1 h d'))) k := by
  rw [val_main_v12_apply, val_main_v10_apply, val_main_v11_apply, val_main_cst_apply]
  unfold scoreF scale
  simp only [Ideal.mulf_def, Ideal.ofBits_def]
  refine congrArg (· * _) (Finset.sum_congr rfl fun d _ => ?_)
  have e1 : lidx_main_v10 (ix4 b h q k) d = ix4 b h q d := funext fun a => Fin.ext (by match a with | ⟨0, _⟩ => rfl | ⟨1, _⟩ => rfl | ⟨2, _⟩ => rfl | ⟨3, _⟩ => rfl)
  have e2 : ridx_main_v10 (ix4 b h q k) d = ix4 b h k d := funext fun a => Fin.ext (by match a with | ⟨0, _⟩ => rfl | ⟨1, _⟩ => rfl | ⟨2, _⟩ => rfl | ⟨3, _⟩ => rfl)
  rw [e1, e2, qhead, khead]

/-- The last axis of the score array is dropped by the two reductions. -/
theorem reducesLast : S2x16x2048x2048.Reduces [3] S2x16x2048 := by decide

/-- The reduced index (b, h, q) with key position `k` put back is (b, h, q, k). -/
theorem lift_last (b : Fin 2) (h : Fin 16) (q : Fin 2048) (k : Fin (S2x16x2048x2048.size 3)) :
    reducesLast.lift (ix3 b h q) k = ix4 b h q (⟨k.val, k.isLt⟩ : Fin 2048) := by
  funext c; apply Fin.ext
  fin_cases c <;> rfl

/-- The row maximum: the reduce from −∞ followed by one more maximum with −∞, which changes nothing because a fold of
    `max` is at least its starting value. -/
theorem rowmax_eq (x0 : A3 2 2048 1024) (x1 : A2 3072 1024) (b : Fin 2) (h : Fin 16) (q : Fin 2048) :
    val_main_v15 (F := Ideal) x0 x1 (ix3 b h q) = rowMaxF (fun d' => val_main_v0 (F := Ideal) x0 x1 (ix3 b q (col 0 h d'))) (fun k' d' => val_main_v0 (F := Ideal) x0 x1 (ix3 b k' (col 1 h d'))) := by
  rw [val_main_v15_apply, val_main_v14_apply, val_main_cst_1_apply]
  unfold val_main_v13
  rw [Host.reduce_eq_fold_single FloatOps.maximumf _ _ reducesTo_S2x16x2048x2048_S2x16x2048_d3 reducesLast h_S_, val_main_cst_0_apply]
  have hf : (val_main_v12 (F := Ideal) x0 x1 ∘ reducesLast.lift (ix3 b h q)) = fun k : Fin 2048 => scoreF (fun d' => val_main_v0 (F := Ideal) x0 x1 (ix3 b q (col 0 h d'))) (fun k' d' => val_main_v0 (F := Ideal) x0 x1 (ix3 b k' (col 1 h d'))) k :=
    funext fun k => by
      show val_main_v12 (F := Ideal) x0 x1 (reducesLast.lift (ix3 b h q) k) = _
      rw [lift_last]; exact score_eq x0 x1 b h q k
  rw [hf]
  unfold rowMaxF maxInit
  exact max_eq_right ((Finset.le_fold_max _).2 (Or.inl le_rfl))

/-- The shifted exponential of a score. -/
theorem expo_eq (x0 : A3 2 2048 1024) (x1 : A2 3072 1024) (b : Fin 2) (h : Fin 16) (q k : Fin 2048) :
    val_main_v19 (F := Ideal) x0 x1 (ix4 b h q k) = expoF (fun d' => val_main_v0 (F := Ideal) x0 x1 (ix3 b q (col 0 h d'))) (fun k' d' => val_main_v0 (F := Ideal) x0 x1 (ix3 b k' (col 1 h d'))) k := by
  rw [val_main_v19_apply, val_main_v18_apply, val_main_v17_apply, val_main_v16_apply]
  have e : idx_main_v16 (idx_main_v17 (ix4 b h q k)) = ix3 b h q :=
    funext fun a => Fin.ext (by match a with | ⟨0, _⟩ => rfl | ⟨1, _⟩ => rfl | ⟨2, _⟩ => rfl)
  rw [e, score_eq, rowmax_eq]
  rfl

/-- The softmax's denominator: the sum from the zero word is the plain sum. -/
theorem denom_eq (x0 : A3 2 2048 1024) (x1 : A2 3072 1024) (b : Fin 2) (h : Fin 16) (q : Fin 2048) :
    val_main_v20 (F := Ideal) x0 x1 (ix3 b h q) = denomF (fun d' => val_main_v0 (F := Ideal) x0 x1 (ix3 b q (col 0 h d'))) (fun k' d' => val_main_v0 (F := Ideal) x0 x1 (ix3 b k' (col 1 h d'))) := by
  rw [val_main_v20_apply, val_main_cst_2_apply]
  unfold denomF
  rw [Ideal.ofBits_def, Ideal.ofBits_zero_f32, zero_add]
  refine Finset.sum_congr rfl fun k _ => ?_
  have e : idx_main_v20 (ix3 b h q) k = ix4 b h q k :=
    funext fun a => Fin.ext (by match a with | ⟨0, _⟩ => rfl | ⟨1, _⟩ => rfl | ⟨2, _⟩ => rfl | ⟨3, _⟩ => rfl)
  rw [e, expo_eq]

/-- The attention weight. -/
theorem weight_eq (x0 : A3 2 2048 1024) (x1 : A2 3072 1024) (b : Fin 2) (h : Fin 16) (q k : Fin 2048) :
    val_main_v23 (F := Ideal) x0 x1 (ix4 b h q k) = weightF (fun d' => val_main_v0 (F := Ideal) x0 x1 (ix3 b q (col 0 h d'))) (fun k' d' => val_main_v0 (F := Ideal) x0 x1 (ix3 b k' (col 1 h d'))) k := by
  rw [val_main_v23_apply, val_main_v22_apply, val_main_v21_apply]
  have e : idx_main_v21 (idx_main_v22 (ix4 b h q k)) = ix3 b h q :=
    funext fun a => Fin.ext (by match a with | ⟨0, _⟩ => rfl | ⟨1, _⟩ => rfl | ⟨2, _⟩ => rfl)
  rw [e, expo_eq, denom_eq]
  rfl

/-- One head's output lane: the weighted sum of the values. -/
theorem headout_eq (x0 : A3 2 2048 1024) (x1 : A2 3072 1024) (b : Fin 2) (h : Fin 16) (q : Fin 2048) (d : Fin 64) :
    val_main_v24 (F := Ideal) x0 x1 (ix4 b h q d) = headOut (val_main_v0 (F := Ideal) x0 x1) b h q d := by
  rw [val_main_v24_apply]
  unfold headOut headOutF
  refine Finset.sum_congr rfl fun k _ => ?_
  have e1 : lidx_main_v24 (ix4 b h q d) k = ix4 b h q k :=
    funext fun a => Fin.ext (by match a with | ⟨0, _⟩ => rfl | ⟨1, _⟩ => rfl | ⟨2, _⟩ => rfl | ⟨3, _⟩ => rfl)
  have e2 : ridx_main_v24 (ix4 b h q d) k = ix4 b h k d :=
    funext fun a => Fin.ext (by match a with | ⟨0, _⟩ => rfl | ⟨1, _⟩ => rfl | ⟨2, _⟩ => rfl | ⟨3, _⟩ => rfl)
  rw [e1, e2, weight_eq, vhead]

/-- The heads merged back into 1024 columns: column `j` is lane `j mod 64` of head `j / 64`. -/
theorem attn_eq (x0 : A3 2 2048 1024) (x1 : A2 3072 1024) :
    val_main_v26 (F := Ideal) x0 x1 = attn (val_main_v0 (F := Ideal) x0 x1) := by
  funext i
  obtain ⟨b, q, j, rfl⟩ : ∃ (b : Fin 2) (q : Fin 2048) (j : Fin 1024), i = ix3 b q j := ⟨i 0, i 1, i 2, eq_ix3 i⟩
  rw [val_main_v26_apply, val_main_v25_apply]
  have e : idx_main_v25 (idx_main_v26 (ix3 b q j)) = ix4 b (headOf j) q (laneOf j) := funext fun a => Fin.ext (by
    have h0 := b.isLt; have h1 := q.isLt; have h2 := j.isLt
    match a with
    | ⟨0, _⟩ => show ((b.val * 2048 + q.val) * 1024 + j.val) / 2097152 = b.val; omega
    | ⟨1, _⟩ => show ((b.val * 2048 + q.val) * 1024 + j.val) / 64 % 16 = j.val / 64; omega
    | ⟨2, _⟩ => show ((b.val * 2048 + q.val) * 1024 + j.val) / 1024 % 2048 = q.val; omega
    | ⟨3, _⟩ => show ((b.val * 2048 + q.val) * 1024 + j.val) % 64 = j.val % 64; omega)
  rw [e, headout_eq]
  rfl

/-- The reference computes the layer. -/
theorem ref_is_layer (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) :
    val_main_v27 (F := Ideal) x0 x1 x2 = layer x0 x1 x2 := by
  funext i
  rw [val_main_v27_apply, attn_eq, qkv_eq]
  show _ = ∑ d : Fin 1024, attn (proj x0 x1) (ix3 (i 0) (i 1) d) * x2 (ix2 (i 2) d)
  refine Finset.sum_congr rfl fun k _ => ?_
  have e1 : lidx_main_v27 i k = ix3 (i 0) (i 1) k := funext fun a => Fin.ext (by match a with | ⟨0, _⟩ => rfl | ⟨1, _⟩ => rfl | ⟨2, _⟩ => rfl)
  have e2 : ridx_main_v27 i k = ix2 (i 2) k := funext fun a => Fin.ext (by match a with | ⟨0, _⟩ => rfl | ⟨1, _⟩ => rfl)
  exact congrArg₂ (· * ·) (congrArg (attn (proj x0 x1)) e1) (congrArg x2 e2)

end Cert.ReferenceIdeal.RefValue

end
-- ==== Proof.RefValue.lean ====
/-
  The reference program against the specification of the attention layer: its result array is the layer of its
  three argument arrays, and the arguments end unchanged.
-/
import proofs.«129810_j60146722013367_2_alg».proof.Defs
import proofs.«129810_j60146722013367_2_alg».proof.Proof.Gen.Pre_finite_inputs
import proofs.«129810_j60146722013367_2_alg».proof.Proof.Gen.ReferenceIdeal.Run
import proofs.«129810_j60146722013367_2_alg».proof.Proof.Gen.ReferenceIdeal.Read
import proofs.«129810_j60146722013367_2_alg».proof.Proof.AttnSpec
import proofs.«129810_j60146722013367_2_alg».proof.Proof.RefStages

noncomputable section

namespace Cert.ReferenceIdeal.RefValue

open Cert.ReferenceIdeal Cert.ReferenceIdeal.Gen Idealize.ShloMosaic Idealize.ShloMosaic.TcCoe Idealize.SL.Sem

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result is the attention layer of its three arguments, and the arguments end unchanged. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v27)
        = Cert.AttnSpec.layer (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run Cert.ReferenceIdeal.defs _ _).mono
    (fun _ h c => ⟨(h c).1.trans ((Cert.ReferenceIdeal.Read.val_main_v27_eq m' c).trans (ref_is_layer _ _ _)), (h c).2⟩)
    (Cert.ReferenceIdeal.Value.run (F := Ideal) m' ρ')

end Cert.ReferenceIdeal.RefValue

end
-- ==== Proof.lean ====
/-
  A fused multi-head attention layer — a packed query/key/value projection, sixteen heads of softmax attention over 2048
  positions, an output projection — written as three tiled kernels with reshapes between them, against the same layer
  written with whole-array operations.

  On the extended reals, where a change of float format is the identity, both compute one function of the three
  arguments, entry by entry (Proof/AttnSpec.lean): the kernels only tile the rows (blocks of 512 rows for the two
  projections; one batch entry's 64 query rows against all its keys and values for the attention) and re-lay the heads
  inside a block, while the reference splits the packed projection and moves the head axis with whole-array transposes.
  Every contraction is over a whole axis on both sides and the softmax is written the same way (row maximum taken out,
  exponential, sum, quotient), so the two agree operation by operation: no law of arithmetic beyond reading each
  operation at an index is used, and the precondition is never opened.

  The three frames: each kernel program runs to the end, faults nowhere and leaves its arguments as launched
  (Proof/KIBodies.lean, KIRun.lean, KIChain.lean for the idealized kernel; the same text at the word level in
  KBodies.lean, KRun.lean, KChain.lean); the reference's frame is its run with the result dropped. The idealization
  rewrote nothing, so `preserves` is trivial. `algebraic`: the kernel's run ends with the layer in its result buffer
  (Proof/KIValue.lean, over each region's whole-array result in KIFinals02.lean and KIFinal1.lean and each body read at
  an index in BodyValue.lean), and so does the reference's (Proof/RefValue.lean).
-/
import proofs.«129810_j60146722013367_2_alg».proof.Defs
import proofs.«129810_j60146722013367_2_alg».proof.Proof.Gen.Kernel
import proofs.«129810_j60146722013367_2_alg».proof.Proof.Gen.KernelIdeal
import proofs.«129810_j60146722013367_2_alg».proof.Proof.Gen.ReferenceIdeal
import proofs.«129810_j60146722013367_2_alg».proof.Proof.Gen.Pre_finite_inputs
import proofs.«129810_j60146722013367_2_alg».proof.Proof.KChain
import proofs.«129810_j60146722013367_2_alg».proof.Proof.KIValue
import proofs.«129810_j60146722013367_2_alg».proof.Proof.RefValue

noncomputable section

namespace Cert.Proof

open Idealize.ShloMosaic Idealize.ShloMosaic.TcCoe Idealize.SL.Sem

/-- The word-level kernel runs, faults nowhere and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The idealization rewrote no operation. -/
theorem preserves : Cert.preserves_Kernel_KernelIdeal := trivial

/-- Both idealized programs end with the attention layer of the (agreeing) arguments in their result buffers. -/
theorem algebraic : Cert.algebraic_KernelIdeal_ReferenceIdeal := by
  intro m ρ m' ρ' _ hagree
  refine ⟨fun c => Cert.AttnSpec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
